-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x512 .f32) (main_arg1 : IVec S2x1600000 32) (main_arg2 : FVec F S512x128 .f32) (main_arg3 : FVec F S128 .f32) (main_arg4 : FVec F S128x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x512 : Shape := ⟨2, ![4000, 512]⟩
abbrev S4000x1 : Shape := ⟨2, ![4000, 1]⟩
abbrev S4000x128 : Shape := ⟨2, ![4000, 128]⟩
abbrev S1600000x128 : Shape := ⟨2, ![1600000, 128]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 60
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S4000x512_S512x128_S4000x128_1_0_0_1_n_n_wf : DotDims.WF S4000x512 S512x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S100000, .i32⟩
  | 12 => ⟨S1700000, .i32⟩
  | 13 => ⟨S1700000, .i32⟩
  | 14 => ⟨S_, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S_, .f32⟩
  | 25 => ⟨S1700000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x64, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S_, .f32⟩
  | 87 => ⟨S1700000, .f32⟩
  | 88 => ⟨S100000, .f32⟩
  | 89 => ⟨S_, .f32⟩
  | 90 => ⟨S100000, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x512, .f32⟩

abbrev hbmTy0_1 (i : Nat) : BufTy := match i % 128 with
  | 0 => ⟨S1x64, .f32⟩
  | 1 => ⟨S100000x64, .f32⟩
  | 2 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_21 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.GcnSpec.lean ====
/-
  A two-layer graph convolution with self-loops and symmetric degree normalisation, written two ways over the
  extended reals, for an arbitrary finite set of edges `ι` with endpoints `s, d : ι → ν` in a finite set of nodes `ν`.

  * The node-scaled form: every node's feature row is multiplied by `dv n = deg(n)^(-1/2)` BEFORE it is sent along
    the edges, the rows arriving at a node and the node's own scaled row are added, and the total is multiplied by
    `dv n` once more (`aggK`, `hidK`, `outK`).
  * The edge-scaled form: the list of edges is extended by one loop per node, every message `Y (s e)` is multiplied
    by `dv (s e) * dv (d e)`, and the messages arriving at a node are added (`layerR`, `outR`).

  The degree is one plus the number of edges arriving at the node, counted as a sum of the word `1.0`; the two forms
  add its terms in different orders (`degK`, `degR`).
-/
import Idealize.ShloMosaic.PureOps.Ideal
import Idealize.ShloMosaic.Lib.ValueIdx

noncomputable section

open scoped BigOperators

namespace Cert.Gcn

open Idealize.ShloMosaic Idealize.ShloMosaic.ValueIdx

/-- The f32 word of `1.0` read as an extended real. -/
abbrev oneW : EReal := Ideal.ofBits .f32 0x3F800000#32
/-- The f32 word of `0.0` read as an extended real. -/
abbrev zeroW : EReal := Ideal.ofBits .f32 0x00000000#32

section Generic

variable {ι ν κ₀ κ₁ κ₂ : Type} [Fintype ι] [DecidableEq ν] [Fintype κ₀] [Fintype κ₁]
variable (s d : ι → ν)

/-- The number of edges arriving at `n`, as a sum of the word `1.0`. -/
def cnt (n : ν) : EReal := ∑ e : ι, if d e = n then oneW else 0

/-- The degree with the loop counted first: `1 + (0 + #arrivals)`. -/
def degK (n : ν) : EReal := oneW + (zeroW + cnt d n)
/-- The degree with the loop counted last, among the arrivals: `0 + (#arrivals + 1)`. -/
def degR (n : ν) : EReal := zeroW + (cnt d n + oneW)

/-- `max(deg, 1)^(-1/2)` of the first degree. -/
def dinvK (n : ν) : EReal := Ideal.rsqrt (max (degK d n) oneW)
/-- `max(deg, 1)^(-1/2)` of the second degree. -/
def dinvR (n : ν) : EReal := Ideal.rsqrt (max (degR d n) oneW)

/-- A matrix product, entry `(n, f)`: `Σ_k X n k · W k f`. -/
def prod (X : ν → κ₀ → EReal) (W : κ₀ → κ₁ → EReal) (n : ν) (f : κ₁) : EReal := ∑ k : κ₀, X n k * W k f

/-- A node's row times the node's scale. -/
def scaled (dv : ν → EReal) (Y : ν → κ₁ → EReal) (n : ν) (f : κ₁) : EReal := Y n f * dv n

/-- NODE-SCALED aggregation: the scaled rows of the sources of the edges arriving at `n`, added from zero, plus
    `n`'s own scaled row. -/
def aggK (dv : ν → EReal) (Y : ν → κ₁ → EReal) (n : ν) (f : κ₁) : EReal :=
  (zeroW + ∑ e : ι, if d e = n then scaled dv Y (s e) f else 0) + scaled dv Y n f

/-- The hidden layer of the node-scaled form: `max(agg · dv + b, 0)`. -/
def hidK (dv : ν → EReal) (Y : ν → κ₁ → EReal) (b : κ₁ → EReal) (n : ν) (f : κ₁) : EReal :=
  max (aggK s d dv Y n f * dv n + b f) zeroW

/-- EDGE-SCALED layer: the messages `Y (s e) · (dv (s e) · dv (d e))` arriving at `n`, then the loop's message
    `Y n · (dv n · dv n)`, added from zero, plus the bias. -/
def layerR (dv : ν → EReal) (Y : ν → κ₁ → EReal) (b : κ₁ → EReal) (n : ν) (f : κ₁) : EReal :=
  (zeroW + ((∑ e : ι, if d e = n then Y (s e) f * (dv (s e) * dv (d e)) else 0) + Y n f * (dv n * dv n))) + b f

/-- The hidden layer of the edge-scaled form: `max(layer, 0)`. -/
def hidR (dv : ν → EReal) (Y : ν → κ₁ → EReal) (b : κ₁ → EReal) (n : ν) (f : κ₁) : EReal :=
  max (layerR s d dv Y b n f) zeroW

variable [Fintype κ₂]

/-- The whole node-scaled network at `(n, g)`. -/
def outK (X : ν → κ₀ → EReal) (W1 : κ₀ → κ₁ → EReal) (b1 : κ₁ → EReal) (W2 : κ₁ → κ₂ → EReal) (b2 : κ₂ → EReal)
    (n : ν) (g : κ₂) : EReal :=
  dinvK d n * aggK s d (dinvK d) (prod (hidK s d (dinvK d) (prod X W1) b1) W2) n g + b2 g

/-- The whole edge-scaled network at `(n, g)`. -/
def outR (X : ν → κ₀ → EReal) (W1 : κ₀ → κ₁ → EReal) (b1 : κ₁ → EReal) (W2 : κ₁ → κ₂ → EReal) (b2 : κ₂ → EReal)
    (n : ν) (g : κ₂) : EReal :=
  layerR s d (dinvR d) (prod (hidR s d (dinvR d) (prod X W1) b1) W2) b2 n g

end Generic

/-! ## The instance: 100000 nodes, 1600000 edges given as a [2, 1600000] array of 32-bit words -/

/-- The edge array: row 0 the sources, row 1 the destinations. -/
abbrev EdgeArr : Type := IVec (⟨2, ![2, 1600000]⟩ : Shape) 32

/-- Every endpoint, read as a signed integer, is a node number. -/
def InRange (ei : EdgeArr) : Prop :=
  ∀ (r : Fin 2) (e : Fin 1600000), 0 ≤ (ei (ix2 r e)).toInt ∧ (ei (ix2 r e)).toInt < 100000

/-- The endpoint in row `r` of edge `e` as a node (clamped into the node range, which changes nothing when
    `InRange` holds). -/
def nodeAt (ei : EdgeArr) (r : Fin 2) (e : Fin 1600000) : Fin 100000 :=
  ⟨min (ei (ix2 r e)).toInt.toNat 99999, by omega⟩

theorem nodeAt_val {ei : EdgeArr} (h : InRange ei) (r : Fin 2) (e : Fin 1600000) :
    ((nodeAt ei r e).val : ℤ) = (ei (ix2 r e)).toInt := by
  have := h r e
  show ((min (ei (ix2 r e)).toInt.toNat 99999 : ℕ) : ℤ) = _
  omega

/-- A rank-2 array as a function of its two coordinates. -/
def mat {a b : ℕ} (x : (⟨2, ![a, b]⟩ : Shape).Idx → EReal) : Fin a → Fin b → EReal := fun i j => x (ix2 i j)
/-- A rank-1 array as a function of its coordinate. -/
def vec {a : ℕ} (x : (⟨1, ![a]⟩ : Shape).Idx → EReal) : Fin a → EReal := fun i => x (ix1 i)

section Instance
variable (x0 : (⟨2, ![100000, 512]⟩ : Shape).Idx → EReal) (ei : EdgeArr)
  (x2 : (⟨2, ![512, 128]⟩ : Shape).Idx → EReal) (x3 : (⟨1, ![128]⟩ : Shape).Idx → EReal)
  (x4 : (⟨2, ![128, 64]⟩ : Shape).Idx → EReal) (x5 : (⟨1, ![64]⟩ : Shape).Idx → EReal)

/-- The node-scaled network of the six argument arrays at `(n, g)`. -/
def kernelOut (n : Fin 100000) (g : Fin 64) : EReal :=
  outK (nodeAt ei 0) (nodeAt ei 1) (mat x0) (mat x2) (vec x3) (mat x4) (vec x5) n g

/-- The edge-scaled network of the six argument arrays at `(n, g)`. -/
def referenceOut (n : Fin 100000) (g : Fin 64) : EReal :=
  outR (nodeAt ei 0) (nodeAt ei 1) (mat x0) (mat x2) (vec x3) (mat x4) (vec x5) n g

/-- The node-scaled network as a [100000, 64] array. -/
def kernelArr : (⟨2, ![100000, 64]⟩ : Shape).Idx → EReal := fun i => kernelOut x0 ei x2 x3 x4 x5 (i 0) (i 1)

end Instance

end Cert.Gcn

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.GcnLaw.lean ====
/-
  The node-scaled and the edge-scaled graph convolution agree over the extended reals.

  The scale `dv n = max(deg n, 1)^(-1/2)` is a non-negative REAL number: the degree is one plus a finite count.
  Multiplication by a non-negative real distributes over addition on the extended reals, whatever the summands are
  (infinite ones included), so the outer factor `dv n` of the node-scaled form can be pushed through the sum of the
  arriving messages; on an edge arriving at `n` it meets `dv (s e)` as `dv (s e) * dv n = dv (s e) * dv (d e)`, the
  edge's weight in the edge-scaled form.  Nothing is cancelled and nothing about the features is assumed.
-/
import proofs.«156284_j70136815943923_2_alg».proof.Proof.GcnSpec
import proofs.«156284_j70136815943923_2_alg».proof.Proof.LibRecipDiv
import Mathlib.Data.EReal.Operations

noncomputable section

open scoped BigOperators

namespace Cert.Gcn

open Idealize.ShloMosaic

/-- The word of `1.0` is the number one. -/
theorem oneW_eq : oneW = 1 := Cert.LibRecipDiv.ofBits_one_f32
/-- The word of `0.0` is the number zero. -/
theorem zeroW_eq : zeroW = 0 := Ideal.ofBits_zero_f32

section Generic

variable {ι ν κ₀ κ₁ κ₂ : Type} [Fintype ι] [DecidableEq ν] [Fintype κ₀] [Fintype κ₁] [Fintype κ₂]

/-- A finite sum of ones and zeros is a natural number. -/
theorem sum_ind_eq_nat (p : ι → Prop) [DecidablePred p] (S : Finset ι) :
    ∃ k : ℕ, (∑ e ∈ S, if p e then (1 : EReal) else 0) = ((k : ℝ) : EReal) := by
  classical
  induction S using Finset.induction_on with
  | empty => exact ⟨0, by simp⟩
  | insert a S ha ih =>
    obtain ⟨k, hk⟩ := ih
    rw [Finset.sum_insert ha, hk]
    by_cases h : p a
    · refine ⟨k + 1, ?_⟩
      rw [if_pos h, Nat.cast_add, Nat.cast_one, EReal.coe_add, EReal.coe_one, add_comm]
    · exact ⟨k, by rw [if_neg h, zero_add]⟩

/-- The number of arrivals is a natural number. -/
theorem cnt_eq_nat (d : ι → ν) (n : ν) : ∃ k : ℕ, cnt d n = ((k : ℝ) : EReal) := by
  unfold cnt
  rw [oneW_eq]
  exact sum_ind_eq_nat (fun e => d e = n) Finset.univ

/-- The inverse square root of a real number `k + 1 ≥ 1`, clamped below by one, is the real `(√(k+1))⁻¹`. -/
theorem rsqrt_max_one (k : ℕ) (x : EReal) (hx : x = (((k : ℝ) + 1 : ℝ) : EReal)) :
    Ideal.rsqrt (max x 1) = (((Real.sqrt ((k : ℝ) + 1))⁻¹ : ℝ) : EReal) := by
  subst hx
  have hk : (0 : ℝ) ≤ (k : ℝ) := Nat.cast_nonneg k
  have h1 : (1 : EReal) ≤ (((k : ℝ) + 1 : ℝ) : EReal) := by
    rw [← EReal.coe_one, EReal.coe_le_coe_iff]; linarith
  have hpos : (0 : ℝ) < (k : ℝ) + 1 := by linarith
  rw [max_eq_left h1, Ideal.rsqrt_coe, if_neg (not_lt.mpr hpos.le), if_neg hpos.ne']

/-- Both degree scales are one and the same non-negative real number. -/
theorem dinv_real (d : ι → ν) (n : ν) :
    ∃ r : ℝ, 0 ≤ r ∧ dinvK d n = (r : EReal) ∧ dinvR d n = (r : EReal) := by
  obtain ⟨k, hk⟩ := cnt_eq_nat d n
  refine ⟨(Real.sqrt ((k : ℝ) + 1))⁻¹, inv_nonneg.mpr (Real.sqrt_nonneg _), ?_, ?_⟩
  · unfold dinvK degK
    rw [oneW_eq, zeroW_eq, hk, zero_add]
    exact rsqrt_max_one k _ (by rw [EReal.coe_add, EReal.coe_one, add_comm])
  · unfold dinvR degR
    rw [oneW_eq, zeroW_eq, hk, zero_add]
    exact rsqrt_max_one k _ (by rw [EReal.coe_add, EReal.coe_one])

/-- The two degree scales are the same function. -/
theorem dinvR_eq_dinvK (d : ι → ν) : dinvR d = dinvK d := by
  funext m
  obtain ⟨r, _, h1, h2⟩ := dinv_real d m
  rw [h1, h2]

/-- Multiplication by a non-negative real goes through a finite sum of arbitrary extended reals. -/
theorem sum_mul_real (r : ℝ) (hr : 0 ≤ r) (S : Finset ι) (g : ι → EReal) :
    (∑ e ∈ S, g e) * (r : EReal) = ∑ e ∈ S, g e * (r : EReal) := by
  classical
  induction S using Finset.induction_on with
  | empty => simp
  | insert a S ha ih =>
    rw [Finset.sum_insert ha, Finset.sum_insert ha,
      EReal.right_distrib_of_nonneg_of_ne_top (EReal.coe_nonneg.mpr hr) (EReal.coe_ne_top r), ih]

/-- THE LAW OF ONE LAYER: scaling every row before the aggregation and the total after it is scaling every message
    by the product of the two scales, as soon as the scales are non-negative reals. -/
theorem agg_mul_eq_layer (s d : ι → ν) (dv : ν → EReal) (hdv : ∀ m, ∃ r : ℝ, 0 ≤ r ∧ dv m = (r : EReal))
    (Y : ν → κ₁ → EReal) (b : κ₁ → EReal) (n : ν) (f : κ₁) :
    aggK s d dv Y n f * dv n + b f = layerR s d dv Y b n f := by
  obtain ⟨r, hr, hrn⟩ := hdv n
  unfold aggK layerR scaled
  rw [zeroW_eq, zero_add, zero_add, hrn,
    EReal.right_distrib_of_nonneg_of_ne_top (EReal.coe_nonneg.mpr hr) (EReal.coe_ne_top r),
    sum_mul_real r hr, mul_assoc]
  congr 2
  refine Finset.sum_congr rfl fun e _ => ?_
  by_cases h : d e = n
  · rw [if_pos h, if_pos h, h, hrn, mul_assoc]
  · rw [if_neg h, if_neg h, zero_mul]

/-- The hidden layers agree. -/
theorem hidK_eq_hidR (s d : ι → ν) (dv : ν → EReal) (hdv : ∀ m, ∃ r : ℝ, 0 ≤ r ∧ dv m = (r : EReal))
    (Y : ν → κ₁ → EReal) (b : κ₁ → EReal) : hidK s d dv Y b = hidR s d dv Y b := by
  funext n f
  unfold hidK hidR
  rw [agg_mul_eq_layer s d dv hdv]

/-- The two networks agree at every node and every output feature. -/
theorem outK_eq_outR (s d : ι → ν)
    (X : ν → κ₀ → EReal) (W1 : κ₀ → κ₁ → EReal) (b1 : κ₁ → EReal) (W2 : κ₁ → κ₂ → EReal) (b2 : κ₂ → EReal)
    (n : ν) (g : κ₂) :
    outK s d X W1 b1 W2 b2 n g = outR s d X W1 b1 W2 b2 n g := by
  have hdv : ∀ m, ∃ r : ℝ, 0 ≤ r ∧ dinvK d m = (r : EReal) := fun m =>
    let ⟨r, h0, h1, _⟩ := dinv_real d m
    ⟨r, h0, h1⟩
  unfold outK outR
  rw [dinvR_eq_dinvK, ← hidK_eq_hidR s d (dinvK d) hdv, ← agg_mul_eq_layer s d (dinvK d) hdv,
    mul_comm (dinvK d n)]

end Generic

/-- The instance: the node-scaled and the edge-scaled network of the six argument arrays agree. -/
theorem kernelOut_eq_referenceOut (x0 : (⟨2, ![100000, 512]⟩ : Shape).Idx → EReal) (ei : EdgeArr)
    (x2 : (⟨2, ![512, 128]⟩ : Shape).Idx → EReal) (x3 : (⟨1, ![128]⟩ : Shape).Idx → EReal)
    (x4 : (⟨2, ![128, 64]⟩ : Shape).Idx → EReal) (x5 : (⟨1, ![64]⟩ : Shape).Idx → EReal)
    (n : Fin 100000) (g : Fin 64) :
    kernelOut x0 ei x2 x3 x4 x5 n g = referenceOut x0 ei x2 x3 x4 x5 n g :=
  outK_eq_outR _ _ _ _ _ _ _ n g

end Cert.Gcn

end
-- ==== Proof.GcnPre.lean ====
/-
  The precondition's integer clause, read back: every entry of the edge array is a node number.

  The printed precondition ends in the conjunction of its float clauses with
  `all ((0 ≤ a) ∧ (a < 100000))` over the [2, 1600000] array `a` of 32-bit words, both comparisons signed.  The whole
  being the word 1, the last conjunct is 1; an and-reduction over all axes that is 1 met a 1 at every index; and at an
  index the two signed comparisons against the broadcast constants 0 and 100000 are the two integer inequalities.
-/
import proofs.«156284_j70136815943923_2_alg».proof.Defs
import proofs.«156284_j70136815943923_2_alg».proof.Proof.GcnSpec
import Idealize.ShloMosaic.Lib.ReduceAll

noncomputable section

namespace Cert.Gcn

open Idealize.ShloMosaic Idealize.ShloMosaic.ValueIdx Idealize.SL.Sem

/-- A rank-0 array has exactly one index. -/
instance subsingleton_scalarIdx : Subsingleton Cert.Pre_finite_inputs.S_.Idx :=
  ⟨fun a b => funext fun d => d.elim0⟩

/-- The second half of the printed precondition being 1 at its one index, every entry of the integer array it is
    given lies in [0, 100000) as a signed integer. -/
theorem inRange_of_part1 [Cert.Pre_finite_inputs.Facts] {F : FTy → Type} [FloatOps F]
    (a1 : IVec Cert.Pre_finite_inputs.S2x1600000 32) (a5 : FVec F Cert.Pre_finite_inputs.S64 .f32)
    (v13 : IVec Cert.Pre_finite_inputs.S_ 1) (v16 : IVec Cert.Pre_finite_inputs.S128x64 1)
    (j : Cert.Pre_finite_inputs.S_.Idx)
    (h : Cert.Pre_finite_inputs.fn_part1 (F := F) a1 a5 v13 v16 j = 1#1) : InRange a1 := by
  intro r e
  dsimp only [Cert.Pre_finite_inputs.fn_part1] at h
  -- the whole is the and of the float clauses with the integer clause: keep the latter
  have h2 := (IntOp.andi_eq_one.1 h).2
  -- an and-reduction over all axes that is 1 met a 1 at the index (r, e)
  have h3 := Host.reduce_andi_all _ _ _ _ j h2 (ix2 r e)
  -- there, the and of the two signed comparisons against the broadcast constants
  obtain ⟨hge, hlt⟩ := IntOp.andi_eq_one.1 h3
  exact ⟨IntOp.cmpi_sge.1 hge, IntOp.cmpi_slt.1 hlt⟩

/-- The printed precondition being all ones, its integer argument is in range. -/
theorem inRange_of_fn [Cert.Pre_finite_inputs.Facts] {F : FTy → Type} [FloatOps F]
    (a0 : FVec F Cert.Pre_finite_inputs.S100000x512 .f32) (a1 : IVec Cert.Pre_finite_inputs.S2x1600000 32)
    (a2 : FVec F Cert.Pre_finite_inputs.S512x128 .f32) (a3 : FVec F Cert.Pre_finite_inputs.S128 .f32)
    (a4 : FVec F Cert.Pre_finite_inputs.S128x64 .f32) (a5 : FVec F Cert.Pre_finite_inputs.S64 .f32)
    (h : Cert.Pre_finite_inputs.fn (F := F) a0 a1 a2 a3 a4 a5 = fun _ => 1#1) : InRange a1 := by
  have e := congrFun h (fun a => a.elim0)
  exact inRange_of_part1 (F := F) _ _ _ _ _ e

/-- THE PRECONDITION DECODED: the edge array the launch memory holds is in range, on every device. -/
theorem inRange_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1)) :=
  inRange_of_fn (F := Ideal) _ _ _ _ _ _ (h c)

end Cert.Gcn

end
-- ==== Proof.GcnRegions.lean ====
/-
  What each of the two kernels writes, as one function of its whole input arrays.

  The first kernel multiplies the [100000, 512] features by the [512, 128] weights and scales row `n` by the column
  entry `dcol (n, 0)`. The second takes the [100000, 128] aggregate, scales row `n` by `dcol (n, 0)`, adds the bias
  row, clamps at zero, multiplies by the [128, 64] weights and scales row `n` by `dcol (n, 0)` again.
-/
import proofs.«156284_j70136815943923_2_alg».proof.Proof.GcnSpec

noncomputable section

open scoped BigOperators

namespace Cert.Gcn

open Idealize.ShloMosaic Idealize.ShloMosaic.ValueIdx

/-- The first kernel's output array: `(Σ_k x(n,k)·w(k,f)) · dcol(n,0)` at `(n, f)`. -/
def region0Fun (x : (⟨2, ![100000, 512]⟩ : Shape).Idx → EReal) (w : (⟨2, ![512, 128]⟩ : Shape).Idx → EReal)
    (dcol : (⟨2, ![100000, 1]⟩ : Shape).Idx → EReal) : (⟨2, ![100000, 128]⟩ : Shape).Idx → EReal :=
  fun i => (∑ k : Fin 512, x (ix2 (i 0) k) * w (ix2 k (i 1))) * dcol (ix2 (i 0) (0 : Fin 1))

/-- The second kernel's output array: `(Σ_f max(agg(n,f)·dcol(n,0) + brow(0,f), 0)·w(f,g)) · dcol(n,0)` at `(n, g)`. -/
def region1Fun (agg : (⟨2, ![100000, 128]⟩ : Shape).Idx → EReal) (dcol : (⟨2, ![100000, 1]⟩ : Shape).Idx → EReal)
    (brow : (⟨2, ![1, 128]⟩ : Shape).Idx → EReal) (w : (⟨2, ![128, 64]⟩ : Shape).Idx → EReal) :
    (⟨2, ![100000, 64]⟩ : Shape).Idx → EReal :=
  fun i => (∑ f : Fin 128, max (agg (ix2 (i 0) f) * dcol (ix2 (i 0) (0 : Fin 1)) + brow (ix2 (0 : Fin 1) f)) zeroW
      * w (ix2 f (i 1))) * dcol (ix2 (i 0) (0 : Fin 1))

end Cert.Gcn

end
-- ==== Proof.KerHost.lean ====
/-
  The host lines of the node-scaled program around its two kernels, as pure functions of the arrays they read, and
  each stretch of lines read back over arbitrary buffer contents.

  Before the first kernel: the edge array's two rows, and the column `dcol` of `max(1 + #arrivals, 1)^(-1/2)`.
  Between the kernels: the rows of the first kernel's output gathered at the sources and added into the destinations,
  plus that output itself; and the first bias as a [1, 128] row. After the second kernel: the same aggregation of its
  output, the scaling by `dcol` and the second bias.
-/
import proofs.«156284_j70136815943923_2_alg».proof.Proof.Gen.KernelIdeal.Frame
import proofs.«156284_j70136815943923_2_alg».proof.Proof.GcnRegions
import Idealize.ShloMosaic.Lib.StableHlo.Run

set_option maxRecDepth 16384

noncomputable section

namespace Cert.Gcn.KerH

open Idealize.ShloMosaic Idealize.ShloMosaic.TcCoe Idealize.ShloMosaic.Tactic
open Idealize.SL Idealize.SL.Sem
open Cert.KernelIdeal Cert.KernelIdeal.Gen
open Idealize.ShloMosaic.StableHlo

/-- Row 0 of the edge array, the sources, as a vector. -/
def srcArr (x1 : IVec S2x1600000 32) : IVec S1600000 32 :=
  shapeCast S1600000 (extractStridedSlice S1x1600000 ![0, 0] x1 slices_S2x1600000_S1x1600000_0_0) shapeCasts_S1x1600000_S1600000

/-- Row 1 of the edge array, the destinations, as a vector. -/
def dstArr (x1 : IVec S2x1600000 32) : IVec S1600000 32 :=
  shapeCast S1600000 (extractStridedSlice S1x1600000 ![1, 0] x1 slices_S2x1600000_S1x1600000_1_0) shapeCasts_S1x1600000_S1600000

/-- The column of node scales: `rsqrt(max(1 + (0 + Σ ones at the destinations), 1))`, laid out [100000, 1]. -/
def dcolArr (dst : IVec S1600000 32) : FVec Ideal S100000x1 .f32 :=
  broadcastInDim S100000x1 ![0] bcast_S100000_S100000x1_0
    (Host.rsqrt (F := Ideal)
      (maximumf
        (addf (broadcastInDim S100000 ![] bcast_S_S100000 (constant (F := Ideal) S_ .f32 0x3F800000#32))
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32))))
        (broadcastInDim S100000 ![] bcast_S_S100000 (constant (F := Ideal) S_ .f32 0x3F800000#32))))

/-- A negative position wrapped by the number of nodes: `select(v < 0, v + 100000, v)`. -/
def wrapArr (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The aggregation of a [100000, 128] array: its rows at the (wrapped) sources added into the destinations from
    zero, plus the array itself. -/
def agg128 (src dst : IVec S1600000 32) (Ys : FVec Ideal S100000x128 .f32) : FVec Ideal S100000x128 .f32 :=
  addf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 Ys
        (broadcastInDim S1600000x1 ![0] bcast_S1600000_S1600000x1_0 (wrapArr src))))
    Ys

/-- The aggregation of a [100000, 64] array. -/
def agg64 (src dst : IVec S1600000 32) (Ys : FVec Ideal S100000x64 .f32) : FVec Ideal S100000x64 .f32 :=
  addf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 Ys
        (broadcastInDim S1600000x1 ![0] bcast_S1600000_S1600000x1_0 (wrapArr src))))
    Ys

/-- The first bias as a [1, 128] row. -/
def browArr (x3 : FVec Ideal S128 .f32) : FVec Ideal S1x128 .f32 := shapeCast S1x128 x3 shapeCasts_S128_S1x128

/-- The last lines: `dcol · agg + b2`. -/
def outArr (dcol : FVec Ideal S100000x1 .f32) (agg : FVec Ideal S100000x64 .f32) (x5 : FVec Ideal S64 .f32) :
    FVec Ideal S100000x64 .f32 :=
  addf (mulf (broadcastInDim S100000x64 ![0, 1] bcast_S100000x1_S100000x64_0_1 dcol) agg)
    (broadcastInDim S100000x64 ![0, 1] bcast_S1x64_S100000x64_0_1 (broadcastInDim S1x64 ![1] bcast_S64_S1x64_1 x5))

/-! ## Each stretch read back over arbitrary contents -/

section Stretches
variable (V : Valuation τ sig (Elt Ideal))

theorem pre_src : StableHlo.after (hostOps0 (F := Ideal)) V (Proc.devRef .tc main_v1) = srcArr (V (Proc.devRef .tc main_arg1)) := by
  after_results; rfl
theorem pre_dst : StableHlo.after (hostOps0 (F := Ideal)) V (Proc.devRef .tc main_v3) = dstArr (V (Proc.devRef .tc main_arg1)) := by
  after_results; rfl
theorem pre_dcol : StableHlo.after (hostOps0 (F := Ideal)) V (Proc.devRef .tc main_v13) = dcolArr (dstArr (V (Proc.devRef .tc main_arg1))) := by
  unfold dcolArr dstArr
  after_results
  all_goals rfl

theorem mid_agg : StableHlo.after (hostOps1 (F := Ideal)) V (Proc.devRef .tc main_v25)
    = agg128 (V (Proc.devRef .tc main_v1)) (V (Proc.devRef .tc main_v3)) (V (Proc.devRef .tc main_v14)) := by
  unfold agg128 wrapArr
  after_results
  all_goals rfl
theorem mid_brow : StableHlo.after (hostOps1 (F := Ideal)) V (Proc.devRef .tc main_v26) = browArr (V (Proc.devRef .tc main_arg3)) := by
  unfold browArr
  after_results
  all_goals rfl

set_option maxHeartbeats 1000000 in
theorem post_out : StableHlo.after (hostOps2 (F := Ideal)) V (Proc.devRef .tc main_v43)
    = outArr (V (Proc.devRef .tc main_v13))
        (agg64 (V (Proc.devRef .tc main_v1)) (V (Proc.devRef .tc main_v3)) (V (Proc.devRef .tc main_v27))) (V (Proc.devRef .tc main_arg5)) := by
  after_results
  unfold outArr agg64 wrapArr
  rfl

end Stretches

end Cert.Gcn.KerH

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KerRegion0.lean ====
/-
  The first kernel's output array after its 25 grid points, as one function of the three arrays it reads.

  Grid point t works on rows 4000·t … 4000·t + 3999: it multiplies that [4000, 512] block of the features by the whole
  [512, 128] weight matrix and scales row p of the product by the p-th entry of the [4000, 1] block of the column.
  Read at an index, the block it writes back is the whole-array function
    (n, f) ↦ (Σ_k x(n, k) · w(k, f)) · dcol(n, 0)
  restricted to its rows; the 25 row blocks cover the [100000, 128] array, so the array ends holding that function.
-/
import proofs.«156284_j70136815943923_2_alg».proof.Proof.Gen.KernelIdeal.Frame
import proofs.«156284_j70136815943923_2_alg».proof.Proof.GcnRegions
import proofs.«156284_j70136815943923_2_alg».proof.Proof.LibPlainDot
import proofs.«156284_j70136815943923_2_alg».proof.Proof.LibColumn
import Idealize.ShloMosaic.Lib.Pipeline.Value
import Idealize.ShloMosaic.Lib.ValueLayout

set_option maxRecDepth 16384

noncomputable section

open scoped BigOperators

namespace Cert.Gcn.Ker

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- The body's dimension numbers are those of a plain M×K by K×N product. -/
theorem dot0_eq : dot_S4000x512_S512x128_S4000x128_1_0_0_1_n_n = DotDims.plain 4000 512 128 := rfl

/-- The stored value at (p, q): the row-p by column-q product, times the column's entry at row p. Rounding to the
    narrower format is the identity on the ideal values, the product accumulates from zero, and the [4000, 1] column is
    repeated along the 128 columns. -/
theorem pay0_apply (x0 : Vec Ideal S4000x512 .f32) (x1 : Vec Ideal S512x128 .f32) (x2 : Vec Ideal S4000x1 .f32)
    (p : Fin 4000) (q : Fin 128) :
    k0_pay1 (F := Ideal) x0 x1 x2 (ix2 p q)
      = (∑ k : Fin 512, x0 (ix2 p k) * x1 (ix2 k q)) * x2 (ix2 p (0 : Fin 1)) := by
  unfold k0_pay1
  have hm : ∀ (a b : FVec Ideal S4000x128 .f32) (i : S4000x128.Idx), mulf a b i = a i * b i := fun _ _ _ => rfl
  rw [hm, dot0_eq]
  unfold Idealize.ShloMosaic.matmul
  rw [Cert.LibPlainDot.matmul_zero_apply, shapeCast_self, Cert.LibColumn.broadcastTo_a1_ab_apply]
  rfl

/-- The body's result at a block index equals the whole-array function at an array index, whenever the three blocks
    read, at the coordinates the sum visits, what the arrays hold at the matching coordinates. -/
theorem point0 (X : S100000x512.Idx → EReal) (W : S512x128.Idx → EReal) (D : S100000x1.Idx → EReal)
    (b0 : Vec Ideal S4000x512 .f32) (b1 : Vec Ideal S512x128 .f32) (b2 : Vec Ideal S4000x1 .f32)
    (j : S4000x128.Idx) (i : S100000x128.Idx)
    (h0 : ∀ k : Fin 512, b0 (ix2 (j 0) k) = X (ix2 (i 0) k))
    (h1 : ∀ k : Fin 512, b1 (ix2 k (j 1)) = W (ix2 k (i 1)))
    (h2 : b2 (ix2 (j 0) (0 : Fin 1)) = D (ix2 (i 0) (0 : Fin 1))) :
    k0_pay1 (F := Ideal) b0 b1 b2 j = Cert.Gcn.region0Fun X W D i := by
  have hp : k0_pay1 (F := Ideal) b0 b1 b2 j = _ :=
    (congrArg (k0_pay1 (F := Ideal) b0 b1 b2) (eq_ix2 j)).trans (pay0_apply b0 b1 b2 (j 0) (j 1))
  rw [hp]
  unfold Cert.Gcn.region0Fun
  simp only [h0, h1, h2]

/-! ## The block indices over the grid -/

theorem hz0 : (![0, 0] : Fin 2 → Nat) = fun _ => 0 := funext fun a => by fin_cases a <;> rfl

/-- The printed index maps, decided over the 25 points: the features' and the column's row block is the output's, the
    weights' block is the whole matrix, and every column block index is zero. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every row block of the output is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

section Arr

variable (V : (c : Dev nD) → (b : Ref sig .tc) → Buf (Elt Ideal) ((c : Thread nD τ).loc b))

/-! ## What a point writes back -/

/-- WHAT POINT t WRITES BACK is block t of the whole-array function of the three arrays as the region finds them: the
    body stores once, through the whole staging buffer, the arithmetic above of the three loaded blocks, and each block
    reads its array at the output's row (block index × 4000 + the row inside the block). -/
theorem flushed0_eq (c : Dev nD) (t : Fin cfg0.N) :
    (dat0 (F := Ideal) V c).flushed 3 t = ((cfg0.win 3).blk t).view.read (Elt Ideal)
      (Cert.Gcn.region0Fun (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S4000x512) hz0, View.ld_unit_zero (S := S512x128) hz0, View.ld_unit_zero (S := S4000x1) hz0]
  obtain ⟨e00, e01, e10, e11, e20, e21, e31, e3b⟩ := idx_facts0 t
  funext j
  refine point0 (V c (Pipeline.arrRef spec0 0)) (V c (Pipeline.arrRef spec0 1)) (V c (Pipeline.arrRef spec0 2))
    (iblk0 V c 0 t) (iblk0 V c 1 t) (iblk0 V c 2 t) j (((cfg0.win 3).blk t).view.emb j) (fun k => ?_) (fun k => ?_) ?_
  · show V c (Pipeline.arrRef spec0 0) (((cfg0.win 0).blk t).view.emb (ix2 (j 0) k)) = _
    refine congrArg (V c (Pipeline.arrRef spec0 0)) (funext fun a => Fin.ext ?_)
    match a with
    | ⟨0, _⟩ =>
      show win0_0.index t (0 : Fin 2) * 4000 + 1 * (j 0).val = win0_3.index t (0 : Fin 2) * 4000 + 1 * (j 0).val
      rw [e00]
    | ⟨1, _⟩ =>
      show win0_0.index t (1 : Fin 2) * 512 + 1 * k.val = k.val
      rw [e01]; omega
  · show V c (Pipeline.arrRef spec0 1) (((cfg0.win 1).blk t).view.emb (ix2 k (j 1))) = _
    refine congrArg (V c (Pipeline.arrRef spec0 1)) (funext fun a => Fin.ext ?_)
    match a with
    | ⟨0, _⟩ =>
      show win0_1.index t (0 : Fin 2) * 512 + 1 * k.val = k.val
      rw [e10]; omega
    | ⟨1, _⟩ =>
      show win0_1.index t (1 : Fin 2) * 128 + 1 * (j 1).val = win0_3.index t (1 : Fin 2) * 128 + 1 * (j 1).val
      rw [e11, e31]
  · show V c (Pipeline.arrRef spec0 2) (((cfg0.win 2).blk t).view.emb (ix2 (j 0) (0 : Fin 1))) = _
    refine congrArg (V c (Pipeline.arrRef spec0 2)) (funext fun a => Fin.ext ?_)
    match a with
    | ⟨0, _⟩ =>
      show win0_2.index t (0 : Fin 2) * 4000 + 1 * (j 0).val = win0_3.index t (0 : Fin 2) * 4000 + 1 * (j 0).val
      rw [e20]
    | ⟨1, _⟩ =>
      show win0_2.index t (1 : Fin 2) * 1 + 1 * 0 = 0
      rw [e21]

/-! ## The blocks cover the array -/

/-- An index of the array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v14).slice (win0_3.rect t)).set ↔ _
  rw [View.set_slice_whole, Rect.mem_set_unit]
  exact Iff.rfl

/-- Row n of the array is in the block of the point whose row block is n / 4000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-! ## The array after the run -/

/-- THE OUTPUT ARRAY after the 25 points is the whole-array function of the three arrays as the region finds them. -/
theorem region0_arr (c : Dev nD) :
    (dat0 (F := Ideal) V c).arrAt 3 cfg0.N
      = Cert.Gcn.region0Fun (V c (Pipeline.arrRef spec0 0)) (V c (Pipeline.arrRef spec0 1)) (V c (Pipeline.arrRef spec0 2)) :=
  (dat0 (F := Ideal) V c).arrAt_eq_of_cover 3
    (Cert.Gcn.region0Fun (V c (Pipeline.arrRef spec0 0)) (V c (Pipeline.arrRef spec0 1)) (V c (Pipeline.arrRef spec0 2)))
    (fun t _ => flushed0_eq V c t) cover0

end Arr

end Cert.Gcn.Ker

end
-- ==== Proof.KerRegion1.lean ====
/-
  The second kernel's output array after its 25 grid points, as one function of the four arrays it reads.

  Grid point t works on rows 4000·t … 4000·t + 3999: it scales row p of that [4000, 128] block of the aggregate by the
  p-th entry of the [4000, 1] block of the column, adds the [1, 128] bias row, clamps at zero, multiplies by the whole
  [128, 64] weight matrix and scales row p of the product by the column's entry again. Read at an index, the block it
  writes back is the whole-array function
    (n, g) ↦ (Σ_f max(agg(n, f) · dcol(n, 0) + brow(0, f), 0) · w(f, g)) · dcol(n, 0)
  restricted to its rows; the 25 row blocks cover the [100000, 64] array, so the array ends holding that function.
-/
import proofs.«156284_j70136815943923_2_alg».proof.Proof.Gen.KernelIdeal.Frame
import proofs.«156284_j70136815943923_2_alg».proof.Proof.GcnRegions
import proofs.«156284_j70136815943923_2_alg».proof.Proof.LibPlainDot
import proofs.«156284_j70136815943923_2_alg».proof.Proof.LibColumn
import Idealize.ShloMosaic.Lib.Pipeline.Value
import Idealize.ShloMosaic.Lib.ValueLayout

set_option maxRecDepth 16384

noncomputable section

open scoped BigOperators

namespace Cert.Gcn.Ker

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an index -/

/-- The body's dimension numbers are those of a plain M×K by K×N product. -/
theorem dot1_eq : dot_S4000x128_S128x64_S4000x64_1_0_0_1_n_n = DotDims.plain 4000 128 64 := rfl

/-- The stored value at (p, q). The same-shape casts are identities, the [4000, 1] column is repeated along the
    columns and the [1, 128] row along the rows, the splat of the word 0.0 is the constant zero, rounding to the narrower
    format is the identity on the ideal values, and the product accumulates from zero. -/
theorem pay1_apply (x0 : Vec Ideal S4000x128 .f32) (x1 : Vec Ideal S4000x1 .f32) (x2 : Vec Ideal S1x128 .f32)
    (x3 : Vec Ideal S128x64 .f32) (x4 : Vec Ideal S4000x1 .f32) (p : Fin 4000) (q : Fin 64) :
    k1_pay1 (F := Ideal) x0 x1 x2 x3 x4 (ix2 p q)
      = (∑ f : Fin 128, max (x0 (ix2 p f) * x1 (ix2 p (0 : Fin 1)) + x2 (ix2 (0 : Fin 1) f)) Cert.Gcn.zeroW * x3 (ix2 f q))
          * x4 (ix2 p (0 : Fin 1)) := by
  unfold k1_pay1
  simp only [shapeCast_self]
  have hm : ∀ (a b : FVec Ideal S4000x64 .f32) (i : S4000x64.Idx), mulf a b i = a i * b i := fun _ _ _ => rfl
  rw [hm, dot1_eq]
  unfold Idealize.ShloMosaic.matmul
  rw [Cert.LibPlainDot.matmul_zero_apply, Cert.LibColumn.broadcastTo_a1_ab_apply]
  refine congrArg (· * x4 (ix2 p (0 : Fin 1))) (Finset.sum_congr rfl fun f _ => ?_)
  have h1 : broadcastTo S4000x128 x1 broadcasts_S4000x1_S4000x128 (ix2 p f) = x1 (ix2 p (0 : Fin 1)) :=
    Cert.LibColumn.broadcastTo_a1_ab_apply x1 broadcasts_S4000x1_S4000x128 p f
  have h2 : broadcastTo S4000x128 x2 broadcasts_S1x128_S4000x128 (ix2 p f) = x2 (ix2 (0 : Fin 1) f) :=
    broadcastTo_1b_ab_apply x2 broadcasts_S1x128_S4000x128 p f
  show max (x0 (ix2 p f) * broadcastTo S4000x128 x1 broadcasts_S4000x1_S4000x128 (ix2 p f)
      + broadcastTo S4000x128 x2 broadcasts_S1x128_S4000x128 (ix2 p f)) (Ideal.ofBits .f32 0x00000000#32) * x3 (ix2 f q) = _
  rw [h1, h2]

/-- The body's result at a block index equals the whole-array function at an array index, whenever the blocks read, at
    the coordinates the sum visits, what the arrays hold at the matching coordinates. -/
theorem point1 (A : S100000x128.Idx → EReal) (D : S100000x1.Idx → EReal) (B : S1x128.Idx → EReal) (W : S128x64.Idx → EReal)
    (b0 : Vec Ideal S4000x128 .f32) (b1 : Vec Ideal S4000x1 .f32) (b2 : Vec Ideal S1x128 .f32) (b3 : Vec Ideal S128x64 .f32)
    (j : S4000x64.Idx) (i : S100000x64.Idx)
    (h0 : ∀ f : Fin 128, b0 (ix2 (j 0) f) = A (ix2 (i 0) f))
    (h1 : b1 (ix2 (j 0) (0 : Fin 1)) = D (ix2 (i 0) (0 : Fin 1)))
    (h2 : ∀ f : Fin 128, b2 (ix2 (0 : Fin 1) f) = B (ix2 (0 : Fin 1) f))
    (h3 : ∀ f : Fin 128, b3 (ix2 f (j 1)) = W (ix2 f (i 1))) :
    k1_pay1 (F := Ideal) b0 b1 b2 b3 b1 j = Cert.Gcn.region1Fun A D B W i := by
  have hp : k1_pay1 (F := Ideal) b0 b1 b2 b3 b1 j = _ :=
    (congrArg (k1_pay1 (F := Ideal) b0 b1 b2 b3 b1) (eq_ix2 j)).trans (pay1_apply b0 b1 b2 b3 b1 (j 0) (j 1))
  rw [hp]
  unfold Cert.Gcn.region1Fun
  simp only [h0, h1, h2, h3]

/-! ## The block indices over the grid -/

theorem hz1 : (![0, 0] : Fin 2 → Nat) = fun _ => 0 := funext fun a => by fin_cases a <;> rfl

/-- The printed index maps, decided over the 25 points: the aggregate's and the column's row block is the output's, the
    bias row's and the weights' block is the whole array, and every column block index is zero. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every row block of the output is some point's. -/
theorem idx_onto1 : ∀ q0 : Fin 25, ∃ t : Fin cfg1.N, win1_4.index t = ![q0.val, 0] :=
  (by decide +kernel : ∀ q0 : Fin 25, ∃ t : Fin grid1.N, win1_4.index t = ![q0.val, 0])

section Arr

variable (V : (c : Dev nD) → (b : Ref sig .tc) → Buf (Elt Ideal) ((c : Thread nD τ).loc b))

/-! ## What a point writes back -/

/-- WHAT POINT t WRITES BACK is block t of the whole-array function of the four arrays as the region finds them: the
    body stores once, through the whole staging buffer, the arithmetic above of the loaded blocks (the column's block
    loaded twice), and each block reads its array at the output's row (block index × 4000 + the row inside the block). -/
theorem flushed1_eq (c : Dev nD) (t : Fin cfg1.N) :
    (dat1 (F := Ideal) V c).flushed 4 t = ((cfg1.win 4).blk t).view.read (Elt Ideal)
      (Cert.Gcn.region1Fun (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero hz1]
  simp only [View.ld_unit_zero (S := S4000x128) hz1, View.ld_unit_zero (S := S4000x1) hz1, View.ld_unit_zero (S := S1x128) hz1,
    View.ld_unit_zero (S := S128x64) hz1]
  obtain ⟨e00, e01, e10, e11, e20, e21, e30, e31, e41, e4b⟩ := idx_facts1 t
  funext j
  refine point1 (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t) j
    (((cfg1.win 4).blk t).view.emb j) (fun f => ?_) ?_ (fun f => ?_) (fun f => ?_)
  · show V c (Pipeline.arrRef spec1 0) (((cfg1.win 0).blk t).view.emb (ix2 (j 0) f)) = _
    refine congrArg (V c (Pipeline.arrRef spec1 0)) (funext fun a => Fin.ext ?_)
    match a with
    | ⟨0, _⟩ =>
      show win1_0.index t (0 : Fin 2) * 4000 + 1 * (j 0).val = win1_4.index t (0 : Fin 2) * 4000 + 1 * (j 0).val
      rw [e00]
    | ⟨1, _⟩ =>
      show win1_0.index t (1 : Fin 2) * 128 + 1 * f.val = f.val
      rw [e01]; omega
  · show V c (Pipeline.arrRef spec1 1) (((cfg1.win 1).blk t).view.emb (ix2 (j 0) (0 : Fin 1))) = _
    refine congrArg (V c (Pipeline.arrRef spec1 1)) (funext fun a => Fin.ext ?_)
    match a with
    | ⟨0, _⟩ =>
      show win1_1.index t (0 : Fin 2) * 4000 + 1 * (j 0).val = win1_4.index t (0 : Fin 2) * 4000 + 1 * (j 0).val
      rw [e10]
    | ⟨1, _⟩ =>
      show win1_1.index t (1 : Fin 2) * 1 + 1 * 0 = 0
      rw [e11]
  · show V c (Pipeline.arrRef spec1 2) (((cfg1.win 2).blk t).view.emb (ix2 (0 : Fin 1) f)) = _
    refine congrArg (V c (Pipeline.arrRef spec1 2)) (funext fun a => Fin.ext ?_)
    match a with
    | ⟨0, _⟩ =>
      show win1_2.index t (0 : Fin 2) * 1 + 1 * 0 = 0
      rw [e20]
    | ⟨1, _⟩ =>
      show win1_2.index t (1 : Fin 2) * 128 + 1 * f.val = f.val
      rw [e21]; omega
  · show V c (Pipeline.arrRef spec1 3) (((cfg1.win 3).blk t).view.emb (ix2 f (j 1))) = _
    refine congrArg (V c (Pipeline.arrRef spec1 3)) (funext fun a => Fin.ext ?_)
    match a with
    | ⟨0, _⟩ =>
      show win1_3.index t (0 : Fin 2) * 128 + 1 * f.val = f.val
      rw [e30]; omega
    | ⟨1, _⟩ =>
      show win1_3.index t (1 : Fin 2) * 64 + 1 * (j 1).val = win1_4.index t (1 : Fin 2) * 64 + 1 * (j 1).val
      rw [e31, e41]

/-! ## The blocks cover the array -/

/-- An index of the array is in point t's block iff each coordinate is in the block's range on its axis. -/
theorem mem_blk1 (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v27).slice (win1_4.rect t)).set ↔ _
  rw [View.set_slice_whole, Rect.mem_set_unit]
  exact Iff.rfl

/-- Row n of the array is in the block of the point whose row block is n / 4000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto1 ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk1]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 64 ≤ (i 1).val ∧ (i 1).val < win1_4.index t (1 : Fin 2) * 64 + 64
    omega

/-! ## The array after the run -/

/-- THE OUTPUT ARRAY after the 25 points is the whole-array function of the four arrays as the region finds them. -/
theorem region1_arr (c : Dev nD) :
    (dat1 (F := Ideal) V c).arrAt 4 cfg1.N
      = Cert.Gcn.region1Fun (V c (Pipeline.arrRef spec1 0)) (V c (Pipeline.arrRef spec1 1)) (V c (Pipeline.arrRef spec1 2))
          (V c (Pipeline.arrRef spec1 3)) :=
  (dat1 (F := Ideal) V c).arrAt_eq_of_cover 4
    (Cert.Gcn.region1Fun (V c (Pipeline.arrRef spec1 0)) (V c (Pipeline.arrRef spec1 1)) (V c (Pipeline.arrRef spec1 2))
      (V c (Pipeline.arrRef spec1 3)))
    (fun t _ => flushed1_eq V c t) cover1

end Arr

end Cert.Gcn.Ker

end
-- ==== Proof.KerValue.lean ====
/-
  The node-scaled program's result buffer as ONE function of the six argument arrays: the last stretch of host lines
  over the second kernel's output, which is a function of the middle stretch over the first kernel's output, which is
  a function of the first stretch over the arguments. Each kernel changes only its own output array, each host line only
  its own result, so every array a later line reads is found by walking back to the line or kernel that wrote it.
-/
import proofs.«156284_j70136815943923_2_alg».proof.Proof.KerHost
import proofs.«156284_j70136815943923_2_alg».proof.Proof.KerRegion0
import proofs.«156284_j70136815943923_2_alg».proof.Proof.KerRegion1

set_option maxRecDepth 16384

noncomputable section

namespace Cert.Gcn.KerH

open Idealize.ShloMosaic Idealize.ShloMosaic.TcCoe Idealize.ShloMosaic.Tactic
open Idealize.SL Idealize.SL.Sem
open Cert.KernelIdeal Cert.KernelIdeal.Gen
open Idealize.ShloMosaic.StableHlo

/-- The whole program as a function of its argument arrays. -/
def kerFun (x0 : FVec Ideal S100000x512 .f32) (x1 : IVec S2x1600000 32) (x2 : FVec Ideal S512x128 .f32)
    (x3 : FVec Ideal S128 .f32) (x4 : FVec Ideal S128x64 .f32) (x5 : FVec Ideal S64 .f32) : FVec Ideal S100000x64 .f32 :=
  outArr (dcolArr (dstArr x1))
    (agg64 (srcArr x1) (dstArr x1)
      (region1Fun (agg128 (srcArr x1) (dstArr x1) (region0Fun x0 x2 (dcolArr (dstArr x1)))) (dcolArr (dstArr x1)) (browArr x3) x4))
    x5

/-! ## Buffers a stretch of host lines does not write -/

section Keep
variable (V : Valuation τ sig (Elt Ideal))

theorem pre_keep_arg0 : StableHlo.after (hostOps0 (F := Ideal)) V (Proc.devRef .tc main_arg0) = V (Proc.devRef .tc main_arg0) := by after_results
theorem pre_keep_arg2 : StableHlo.after (hostOps0 (F := Ideal)) V (Proc.devRef .tc main_arg2) = V (Proc.devRef .tc main_arg2) := by after_results
theorem pre_keep_arg3 : StableHlo.after (hostOps0 (F := Ideal)) V (Proc.devRef .tc main_arg3) = V (Proc.devRef .tc main_arg3) := by after_results
theorem pre_keep_arg4 : StableHlo.after (hostOps0 (F := Ideal)) V (Proc.devRef .tc main_arg4) = V (Proc.devRef .tc main_arg4) := by after_results
theorem pre_keep_arg5 : StableHlo.after (hostOps0 (F := Ideal)) V (Proc.devRef .tc main_arg5) = V (Proc.devRef .tc main_arg5) := by after_results

theorem mid_keep_v1 : StableHlo.after (hostOps1 (F := Ideal)) V (Proc.devRef .tc main_v1) = V (Proc.devRef .tc main_v1) := by after_results
theorem mid_keep_v3 : StableHlo.after (hostOps1 (F := Ideal)) V (Proc.devRef .tc main_v3) = V (Proc.devRef .tc main_v3) := by after_results
theorem mid_keep_v13 : StableHlo.after (hostOps1 (F := Ideal)) V (Proc.devRef .tc main_v13) = V (Proc.devRef .tc main_v13) := by after_results
theorem mid_keep_arg4 : StableHlo.after (hostOps1 (F := Ideal)) V (Proc.devRef .tc main_arg4) = V (Proc.devRef .tc main_arg4) := by after_results
theorem mid_keep_arg5 : StableHlo.after (hostOps1 (F := Ideal)) V (Proc.devRef .tc main_arg5) = V (Proc.devRef .tc main_arg5) := by after_results

end Keep

/-! ## The walk back -/

section Walk
variable (m : (ℓ : Loc nD τ sig) → Buf (Elt Ideal) ℓ) (ρ : Dev nD → PrngReg)

/-- At the first kernel's entry. -/
theorem w1_src (c : Dev nD) : W1 (F := Ideal) m ρ c (Proc.devRef .tc main_v1) = srcArr (m ((c : Thread nD τ).loc main_arg1)) := pre_src _
theorem w1_dst (c : Dev nD) : W1 (F := Ideal) m ρ c (Proc.devRef .tc main_v3) = dstArr (m ((c : Thread nD τ).loc main_arg1)) := pre_dst _
theorem w1_dcol (c : Dev nD) : W1 (F := Ideal) m ρ c (Proc.devRef .tc main_v13) = dcolArr (dstArr (m ((c : Thread nD τ).loc main_arg1))) := pre_dcol _

/-- At the first kernel's exit. -/
theorem w2_src (c : Dev nD) : W2 (F := Ideal) m ρ c (Proc.devRef .tc main_v1) = srcArr (m ((c : Thread nD τ).loc main_arg1)) :=
  (W2_of_ne m ρ c main_v1 (by decide)).trans (w1_src m ρ c)
theorem w2_dst (c : Dev nD) : W2 (F := Ideal) m ρ c (Proc.devRef .tc main_v3) = dstArr (m ((c : Thread nD τ).loc main_arg1)) :=
  (W2_of_ne m ρ c main_v3 (by decide)).trans (w1_dst m ρ c)
theorem w2_dcol (c : Dev nD) : W2 (F := Ideal) m ρ c (Proc.devRef .tc main_v13) = dcolArr (dstArr (m ((c : Thread nD τ).loc main_arg1))) :=
  ((W2_arr m ρ c 2).trans (((dat0 (V1 m ρ) c).arrAt_in 2 rfl _).trans (A_eq0 (V1 m ρ) c 2))).trans (w1_dcol m ρ c)
theorem w2_arg3 (c : Dev nD) : W2 (F := Ideal) m ρ c (Proc.devRef .tc main_arg3) = m ((c : Thread nD τ).loc main_arg3) :=
  (W2_of_ne m ρ c main_arg3 (by decide)).trans (pre_keep_arg3 _)
theorem w2_arg4 (c : Dev nD) : W2 (F := Ideal) m ρ c (Proc.devRef .tc main_arg4) = m ((c : Thread nD τ).loc main_arg4) :=
  (W2_of_ne m ρ c main_arg4 (by decide)).trans (pre_keep_arg4 _)
theorem w2_arg5 (c : Dev nD) : W2 (F := Ideal) m ρ c (Proc.devRef .tc main_arg5) = m ((c : Thread nD τ).loc main_arg5) :=
  (W2_of_ne m ρ c main_arg5 (by decide)).trans (pre_keep_arg5 _)

theorem w2_y1 (c : Dev nD) : W2 (F := Ideal) m ρ c (Proc.devRef .tc main_v14)
    = region0Fun (m ((c : Thread nD τ).loc main_arg0)) (m ((c : Thread nD τ).loc main_arg2)) (dcolArr (dstArr (m ((c : Thread nD τ).loc main_arg1)))) := by
  refine (W2_arr m ρ c 3).trans ((Cert.Gcn.Ker.region0_arr (V1 m ρ) c).trans ?_)
  have e0 : V1 (F := Ideal) m ρ c (Pipeline.arrRef spec0 0) = m ((c : Thread nD τ).loc main_arg0) := pre_keep_arg0 _
  have e1 : V1 (F := Ideal) m ρ c (Pipeline.arrRef spec0 1) = m ((c : Thread nD τ).loc main_arg2) := pre_keep_arg2 _
  have e2 : V1 (F := Ideal) m ρ c (Pipeline.arrRef spec0 2) = dcolArr (dstArr (m ((c : Thread nD τ).loc main_arg1))) := w1_dcol m ρ c
  rw [e0, e1, e2]

/-- At the second kernel's entry. -/
theorem w3_src (c : Dev nD) : W3 (F := Ideal) m ρ c (Proc.devRef .tc main_v1) = srcArr (m ((c : Thread nD τ).loc main_arg1)) :=
  (mid_keep_v1 _).trans (w2_src m ρ c)
theorem w3_dst (c : Dev nD) : W3 (F := Ideal) m ρ c (Proc.devRef .tc main_v3) = dstArr (m ((c : Thread nD τ).loc main_arg1)) :=
  (mid_keep_v3 _).trans (w2_dst m ρ c)
theorem w3_dcol (c : Dev nD) : W3 (F := Ideal) m ρ c (Proc.devRef .tc main_v13) = dcolArr (dstArr (m ((c : Thread nD τ).loc main_arg1))) :=
  (mid_keep_v13 _).trans (w2_dcol m ρ c)
theorem w3_arg4 (c : Dev nD) : W3 (F := Ideal) m ρ c (Proc.devRef .tc main_arg4) = m ((c : Thread nD τ).loc main_arg4) :=
  (mid_keep_arg4 _).trans (w2_arg4 m ρ c)
theorem w3_arg5 (c : Dev nD) : W3 (F := Ideal) m ρ c (Proc.devRef .tc main_arg5) = m ((c : Thread nD τ).loc main_arg5) :=
  (mid_keep_arg5 _).trans (w2_arg5 m ρ c)
theorem w3_brow (c : Dev nD) : W3 (F := Ideal) m ρ c (Proc.devRef .tc main_v26) = browArr (m ((c : Thread nD τ).loc main_arg3)) := by
  refine (mid_brow _).trans ?_
  rw [w2_arg3]
theorem w3_agg (c : Dev nD) : W3 (F := Ideal) m ρ c (Proc.devRef .tc main_v25)
    = agg128 (srcArr (m ((c : Thread nD τ).loc main_arg1))) (dstArr (m ((c : Thread nD τ).loc main_arg1)))
        (region0Fun (m ((c : Thread nD τ).loc main_arg0)) (m ((c : Thread nD τ).loc main_arg2)) (dcolArr (dstArr (m ((c : Thread nD τ).loc main_arg1))))) := by
  refine (mid_agg _).trans ?_
  rw [w2_src, w2_dst, w2_y1]

/-- At the second kernel's exit. -/
theorem w4_src (c : Dev nD) : W4 (F := Ideal) m ρ c (Proc.devRef .tc main_v1) = srcArr (m ((c : Thread nD τ).loc main_arg1)) :=
  (W4_of_ne m ρ c main_v1 (by decide)).trans (w3_src m ρ c)
theorem w4_dst (c : Dev nD) : W4 (F := Ideal) m ρ c (Proc.devRef .tc main_v3) = dstArr (m ((c : Thread nD τ).loc main_arg1)) :=
  (W4_of_ne m ρ c main_v3 (by decide)).trans (w3_dst m ρ c)
theorem w4_arg5 (c : Dev nD) : W4 (F := Ideal) m ρ c (Proc.devRef .tc main_arg5) = m ((c : Thread nD τ).loc main_arg5) :=
  (W4_of_ne m ρ c main_arg5 (by decide)).trans (w3_arg5 m ρ c)
theorem w4_dcol (c : Dev nD) : W4 (F := Ideal) m ρ c (Proc.devRef .tc main_v13) = dcolArr (dstArr (m ((c : Thread nD τ).loc main_arg1))) :=
  ((W4_arr m ρ c 1).trans (((dat1 (V3 m ρ) c).arrAt_in 1 rfl _).trans (A_eq1 (V3 m ρ) c 1))).trans (w3_dcol m ρ c)

theorem w4_y2 (c : Dev nD) : W4 (F := Ideal) m ρ c (Proc.devRef .tc main_v27)
    = region1Fun
        (agg128 (srcArr (m ((c : Thread nD τ).loc main_arg1))) (dstArr (m ((c : Thread nD τ).loc main_arg1)))
          (region0Fun (m ((c : Thread nD τ).loc main_arg0)) (m ((c : Thread nD τ).loc main_arg2)) (dcolArr (dstArr (m ((c : Thread nD τ).loc main_arg1))))))
        (dcolArr (dstArr (m ((c : Thread nD τ).loc main_arg1)))) (browArr (m ((c : Thread nD τ).loc main_arg3))) (m ((c : Thread nD τ).loc main_arg4)) := by
  refine (W4_arr m ρ c 4).trans ((Cert.Gcn.Ker.region1_arr (V3 m ρ) c).trans ?_)
  have e0 := w3_agg m ρ c
  have e1 := w3_dcol m ρ c
  have e2 := w3_brow m ρ c
  have e3 := w3_arg4 m ρ c
  have f0 : V3 (F := Ideal) m ρ c (Pipeline.arrRef spec1 0) = _ := e0
  have f1 : V3 (F := Ideal) m ρ c (Pipeline.arrRef spec1 1) = _ := e1
  have f2 : V3 (F := Ideal) m ρ c (Pipeline.arrRef spec1 2) = _ := e2
  have f3 : V3 (F := Ideal) m ρ c (Pipeline.arrRef spec1 3) = _ := e3
  rw [f0, f1, f2, f3]

/-- THE RESULT BUFFER at the end of the program is the program's function of the argument arrays as launched. -/
theorem result_value (c : Dev nD) : W5 (F := Ideal) m ρ c (Proc.devRef .tc main_v43)
    = kerFun (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (post_out _).trans ?_
  rw [w4_dcol, w4_src, w4_dst, w4_y2, w4_arg5]
  rfl

end Walk

end Cert.Gcn.KerH

end
-- ==== Proof.LibSegPool.lean ====
/-
  The host's float scatter-add that sums the rows of an [N, C] array into the rows of an [S, C] array named by an
  [N, 1] array of row numbers (a segment sum), read at an index at the ideal instance, and the fact that four such
  sums laid side by side are the sum of the four arrays laid side by side.
-/
import Idealize.ShloMosaic.Lib.ValueIdx
import Idealize.ShloMosaic.PureOps.Ideal
import Idealize.ShloMosaic.Lib.Pipeline.Value

noncomputable section

open scoped BigOperators

namespace Cert.LibSegPool

open Idealize.ShloMosaic Idealize.ShloMosaic.ValueIdx

/-- The dimension numbers of a segment sum: operand `[S, C]`, scatter indices `[N, 1]`, updates `[N, C]`; the
    updates' axis 1 is the window axis, the operand's axis 0 is inserted and is the one the index names, the index
    vector lies on axis 1 of the scatter indices. Their conditions `wf` are decided on literal shapes. -/
abbrev poolDims (S N C : ℕ) (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

section
variable {S N C w : ℕ} (wf : ScatterDims.WF ⟨2, ![S, C]⟩ ⟨2, ![N, 1]⟩ ⟨2, ![N, C]⟩ [1] [0] [0] 1)

/-- On the operand's row axis an update's window starts at its row number `idx[n, 0]`, read as a signed integer. -/
theorem start0 (idx : IVec ⟨2, ![N, 1]⟩ w) (n : Fin N) (g : Fin C) :
    (poolDims S N C wf).start (ix2 n g) idx 0 = (idx (ix2 n (0 : Fin 1))).toInt := by
  unfold ScatterDims.start
  rw [dif_pos (show (0 : Fin 2) ∈ (poolDims S N C wf).scatterDimsToOperandDims from List.mem_singleton.mpr rfl)]
  congr 2
  funext b
  refine Fin.ext ?_
  match b with
  | ⟨0, _⟩ => rfl
  | ⟨1, _⟩ => rfl

/-- On the operand's column axis the window starts at `0`: the index names the row axis only. -/
theorem start1 (idx : IVec ⟨2, ![N, 1]⟩ w) (n : Fin N) (g : Fin C) :
    (poolDims S N C wf).start (ix2 n g) idx 1 = 0 := by
  unfold ScatterDims.start
  rw [dif_neg (show ¬ (1 : Fin 2) ∈ (poolDims S N C wf).scatterDimsToOperandDims from
    (show (1 : Fin 2) ∉ [(0 : Fin 2)] by decide))]

/-- The row axis is inserted: the window coordinate there is `0`. -/
theorem window0 (n : Fin N) (g : Fin C) : (poolDims S N C wf).window (ix2 n g) 0 = 0 := by
  unfold ScatterDims.window
  rw [dif_neg (show ¬ (0 : Fin 2) ∈ (poolDims S N C wf).sKept from
    (show (0 : Fin 2) ∉ (List.finRange 2).filter (fun a => a ∉ [(0 : Fin 2)]) by decide))]

/-- On the column axis the window coordinate is the update's column. -/
theorem window1 (n : Fin N) (g : Fin C) : (poolDims S N C wf).window (ix2 n g) 1 = g.val := by
  unfold ScatterDims.window
  rw [dif_pos (show (1 : Fin 2) ∈ (poolDims S N C wf).sKept from
    (show (1 : Fin 2) ∈ (List.finRange 2).filter (fun a => a ∉ [(0 : Fin 2)]) by decide))]
  rfl

/-- WHERE AN UPDATE LANDS: update element `(n, g)` lands on operand element `(s, f)` exactly when the row number
    `idx[n, 0]`, read as a signed integer and not clamped, is `s`, and the column is the same, `g = f`. A row number
    outside `[0, S)` lands nowhere: the update is dropped. -/
theorem resultIdx_pool (idx : IVec ⟨2, ![N, 1]⟩ w) (n : Fin N) (g : Fin C) (s : Fin S) (f : Fin C) :
    (poolDims S N C wf).resultIdx? (ix2 n g) idx = some (ix2 s f) ↔
      ((idx (ix2 n (0 : Fin 1))).toInt = (s.val : ℤ) ∧ g = f) := by
  have e0 : (poolDims S N C wf).start (ix2 n g) idx 0 + ((poolDims S N C wf).window (ix2 n g) 0 : ℕ)
      = (idx (ix2 n (0 : Fin 1))).toInt := by
    rw [start0, window0]; simp
  have e1 : (poolDims S N C wf).start (ix2 n g) idx 1 + ((poolDims S N C wf).window (ix2 n g) 1 : ℕ) = (g.val : ℤ) := by
    rw [start1, window1]; simp
  unfold ScatterDims.resultIdx?
  constructor
  · intro h
    split at h
    · next hall =>
      have h' := Option.some.inj h
      have h0 : ((poolDims S N C wf).start (ix2 n g) idx 0 + ((poolDims S N C wf).window (ix2 n g) 0 : ℕ)).toNat = s.val :=
        congrArg (fun i => (i 0).val) h'
      have h1 : ((poolDims S N C wf).start (ix2 n g) idx 1 + ((poolDims S N C wf).window (ix2 n g) 1 : ℕ)).toNat = f.val :=
        congrArg (fun i => (i 1).val) h'
      have p0 := (hall 0).1
      rw [e0] at h0 p0
      rw [e1] at h1
      refine ⟨by omega, Fin.ext (by omega)⟩
    · exact absurd h (by simp)
  · rintro ⟨hs, rfl⟩
    have hall : ∀ a : Fin 2, 0 ≤ (poolDims S N C wf).start (ix2 n g) idx a + ((poolDims S N C wf).window (ix2 n g) a : ℕ) ∧
        (poolDims S N C wf).start (ix2 n g) idx a + ((poolDims S N C wf).window (ix2 n g) a : ℕ)
          < ((⟨2, ![S, C]⟩ : Shape).size a : ℕ) := by
      intro a
      match a with
      | ⟨0, _⟩ =>
        have := s.isLt
        show 0 ≤ (poolDims S N C wf).start (ix2 n g) idx 0 + ((poolDims S N C wf).window (ix2 n g) 0 : ℕ) ∧
          (poolDims S N C wf).start (ix2 n g) idx 0 + ((poolDims S N C wf).window (ix2 n g) 0 : ℕ) < (S : ℤ)
        rw [e0, hs]; omega
      | ⟨1, _⟩ =>
        have := g.isLt
        show 0 ≤ (poolDims S N C wf).start (ix2 n g) idx 1 + ((poolDims S N C wf).window (ix2 n g) 1 : ℕ) ∧
          (poolDims S N C wf).start (ix2 n g) idx 1 + ((poolDims S N C wf).window (ix2 n g) 1 : ℕ) < (C : ℤ)
        rw [e1]; omega
    rw [dif_pos hall]
    congr 1
    funext a
    refine Fin.ext ?_
    match a with
    | ⟨0, _⟩ =>
      show ((poolDims S N C wf).start (ix2 n g) idx 0 + ((poolDims S N C wf).window (ix2 n g) 0 : ℕ)).toNat = s.val
      rw [e0, hs]; omega
    | ⟨1, _⟩ =>
      show ((poolDims S N C wf).start (ix2 n g) idx 1 + ((poolDims S N C wf).window (ix2 n g) 1 : ℕ)).toNat = g.val
      rw [e1]; omega

/-- THE SEGMENT SUM READ AT `(s, f)`: the operand there plus the sum, over the update rows `n` whose row number
    `idx[n, 0]` (signed, not clamped) is `s`, of the update's element in column `f`. -/
theorem scatterAdd_pool_apply (x : (⟨2, ![S, C]⟩ : Shape).Idx → EReal) (idx : IVec ⟨2, ![N, 1]⟩ w)
    (upd : (⟨2, ![N, C]⟩ : Shape).Idx → EReal) (s : Fin S) (f : Fin C) :
    Ideal.hostScatterAdd (poolDims S N C wf) x idx upd (ix2 s f)
      = x (ix2 s f) + ∑ n : Fin N, (if (idx (ix2 n (0 : Fin 1))).toInt = (s.val : ℤ) then upd (ix2 n f) else 0) := by
  unfold Ideal.hostScatterAdd
  congr 1
  rw [Finset.sum_filter, sum_idx2]
  refine Finset.sum_congr rfl (fun n _ => ?_)
  simp only [resultIdx_pool]
  by_cases h : (idx (ix2 n (0 : Fin 1))).toInt = (s.val : ℤ)
  · simp [h]
  · simp [h]

end

/-- FOUR `[R, C]` PIECES LAID SIDE BY SIDE, READ AT `(r, g)`: piece `g / C` at `(r, g % C)`. -/
theorem concat4_apply {α : Type} {R C C4 : ℕ}
    (hc : Shape.Concatenates [⟨2, ![R, C]⟩, ⟨2, ![R, C]⟩, ⟨2, ![R, C]⟩, ⟨2, ![R, C]⟩] ⟨2, ![R, C4]⟩ 1)
    (G : Fin 4 → (⟨2, ![R, C]⟩ : Shape).Idx → α) (r : Fin R) (g : Fin C4) (k : Fin 4) (f : Fin C)
    (hk : g.val / C = k.val) (hf : g.val % C = f.val) :
    concatenate ⟨2, ![R, C4]⟩ 1 [⟨⟨2, ![R, C]⟩, G 0⟩, ⟨⟨2, ![R, C]⟩, G 1⟩, ⟨⟨2, ![R, C]⟩, G 2⟩, ⟨⟨2, ![R, C]⟩, G 3⟩] hc (ix2 r g)
      = G k (ix2 r f) := by
  refine concatenate_ofFn_apply (t := ⟨2, ![R, C4]⟩) (s₁ := ⟨2, ![R, C]⟩) (1 : Fin 2) G hc rfl C rfl (ix2 r g) k hk (ix2 r f) hf.symm ?_
  intro b hb
  match b with
  | ⟨0, _⟩ => rfl
  | ⟨1, _⟩ => exact absurd rfl hb

/-- SEGMENT SUMS OF FOUR ARRAYS, SIDE BY SIDE: summing each of four `[N, C]` arrays into `[S, C]` by the same row
    numbers (each sum started from an array `zK`) and laying the four results side by side is summing the four arrays
    laid side by side into `[S, 4C]` (started from `zR`), when the two starting arrays hold one common value. Element
    `(s, g)` of either side is that value plus the sum, over the rows `n` whose number is `s`, of array `g / C` at
    `(n, g % C)`. -/
theorem pool_concat4 {S N C C4 w : ℕ} (hC4 : C4 = 4 * C)
    (wfK : ScatterDims.WF ⟨2, ![S, C]⟩ ⟨2, ![N, 1]⟩ ⟨2, ![N, C]⟩ [1] [0] [0] 1)
    (wfR : ScatterDims.WF ⟨2, ![S, C4]⟩ ⟨2, ![N, 1]⟩ ⟨2, ![N, C4]⟩ [1] [0] [0] 1)
    (hcK : Shape.Concatenates [⟨2, ![S, C]⟩, ⟨2, ![S, C]⟩, ⟨2, ![S, C]⟩, ⟨2, ![S, C]⟩] ⟨2, ![S, C4]⟩ 1)
    (hcR : Shape.Concatenates [⟨2, ![N, C]⟩, ⟨2, ![N, C]⟩, ⟨2, ![N, C]⟩, ⟨2, ![N, C]⟩] ⟨2, ![N, C4]⟩ 1)
    (zK : (⟨2, ![S, C]⟩ : Shape).Idx → EReal) (zR : (⟨2, ![S, C4]⟩ : Shape).Idx → EReal)
    (hz : ∀ i j, zR i = zK j)
    (idx : IVec ⟨2, ![N, 1]⟩ w) (h0 h1 h2 h3 : (⟨2, ![N, C]⟩ : Shape).Idx → EReal) :
    concatenate ⟨2, ![S, C4]⟩ 1
        [⟨⟨2, ![S, C]⟩, Ideal.hostScatterAdd (poolDims S N C wfK) zK idx h0⟩,
         ⟨⟨2, ![S, C]⟩, Ideal.hostScatterAdd (poolDims S N C wfK) zK idx h1⟩,
         ⟨⟨2, ![S, C]⟩, Ideal.hostScatterAdd (poolDims S N C wfK) zK idx h2⟩,
         ⟨⟨2, ![S, C]⟩, Ideal.hostScatterAdd (poolDims S N C wfK) zK idx h3⟩] hcK
      = Ideal.hostScatterAdd (poolDims S N C4 wfR) zR idx
          (concatenate ⟨2, ![N, C4]⟩ 1
            [⟨⟨2, ![N, C]⟩, h0⟩, ⟨⟨2, ![N, C]⟩, h1⟩, ⟨⟨2, ![N, C]⟩, h2⟩, ⟨⟨2, ![N, C]⟩, h3⟩] hcR) := by
  funext j
  obtain ⟨s, g, rfl⟩ : ∃ s g, j = ix2 s g := ⟨j 0, j 1, eq_ix2 j⟩
  -- the piece `k = g / C` and the column `f = g % C` inside it
  have hg : g.val < 4 * C := hC4 ▸ g.isLt
  have hC : 0 < C := by omega
  let k : Fin 4 := ⟨g.val / C, (Nat.div_lt_iff_lt_mul hC).mpr hg⟩
  let f : Fin C := ⟨g.val % C, Nat.mod_lt _ hC⟩
  let H : Fin 4 → (⟨2, ![N, C]⟩ : Shape).Idx → EReal := fun q =>
    match q with | ⟨0, _⟩ => h0 | ⟨1, _⟩ => h1 | ⟨2, _⟩ => h2 | ⟨3, _⟩ => h3
  have hL := concat4_apply hcK (fun q => Ideal.hostScatterAdd (poolDims S N C wfK) zK idx (H q)) s g k f rfl rfl
  have hR : ∀ n : Fin N, concatenate ⟨2, ![N, C4]⟩ 1
      [⟨⟨2, ![N, C]⟩, h0⟩, ⟨⟨2, ![N, C]⟩, h1⟩, ⟨⟨2, ![N, C]⟩, h2⟩, ⟨⟨2, ![N, C]⟩, h3⟩] hcR (ix2 n g) = H k (ix2 n f) :=
    fun n => concat4_apply hcR H n g k f rfl rfl
  refine hL.trans ?_
  rw [scatterAdd_pool_apply, scatterAdd_pool_apply, hz (ix2 s g) (ix2 s f)]
  congr 1
  refine Finset.sum_congr rfl (fun n _ => ?_)
  rw [hR n]

end Cert.LibSegPool

end
-- ==== Proof.LibGatherRows.lean ====
/-
  A gather of whole rows of a matrix, read at an index.

  `x[idx, :]` for a matrix `x : [N, C]` and an integer vector `idx` of `R` row numbers lowers to a gather whose
  start indices are `idx` viewed as `[R, 1]`, with the row axis collapsed, the column axis an offset axis of full
  width, and the index vector on the last axis.  Entry (o, h) of the result is `x` at row `idx[o, 0]` — read as a
  signed integer and clamped into [0, N − 1], as every gather start index is — and column `h`.
-/
import Idealize.ShloMosaic.Lib.ValueIdx

namespace Cert.LibGatherRows

open Idealize.ShloMosaic Idealize.ShloMosaic.ValueIdx

variable {α : Type}

/-- The dimension numbers of a whole-row gather for an operand `[N, C]`, start indices `[R, 1]` and a result `[R, C]`;
    their conditions `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(o, h)`: the operand at row `idx[o, 0]` (signed, clamped into `[0, N − 1]`), column `h`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (o : Fin R) (h : Fin C) :
    Host.gather (rowsDims N C R wf) x idx (ix2 o h)
      = x (ix2 ⟨min (idx (ix2 o (0 : Fin 1))).toInt.toNat (N - 1), by omega⟩ h) := by
  unfold Host.gather
  refine congrArg x (funext fun a => Fin.ext ?_)
  match a with
  | ⟨0, _⟩ =>
    show (rowsDims N C R wf).start (ix2 o h) idx 0 + (rowsDims N C R wf).batchCoord (ix2 o h) 0
        + (rowsDims N C R wf).offCoord (ix2 o h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 o h) ⟨List.idxOf (0 : Fin 2) (rowsDims N C R wf).startIndexMap,
        List.idxOf_lt_length_iff.2 (List.mem_singleton.mpr rfl)⟩ = ix2 o (0 : Fin 1) := by
      funext b; refine Fin.ext ?_
      match b with
      | ⟨0, _⟩ => rfl
      | ⟨1, _⟩ => rfl
    rw [hsi]
    rfl
  | ⟨1, _⟩ =>
    show (rowsDims N C R wf).start (ix2 o h) idx 1 + (rowsDims N C R wf).batchCoord (ix2 o h) 1
        + (rowsDims N C R wf).offCoord (ix2 o h) 1 = h.val
    rw [GatherDims.batchCoord_eq_zero _ _ _ List.not_mem_nil]
    have hs : (rowsDims N C R wf).start (ix2 o h) idx 1 = 0 := by
      unfold GatherDims.start
      rw [dif_neg (show ¬ (1 : Fin 2) ∈ ([0] : List (Fin 2)) from by decide)]
    rw [hs]
    have ho : (rowsDims N C R wf).offCoord (ix2 o h) 1 = h.val := by
      unfold GatherDims.offCoord
      rw [dif_pos ((GatherDims.mem_sKept (rowsDims N C R wf) 1).mpr
        ⟨show ¬ (1 : Fin 2) ∈ ([0] : List (Fin 2)) from by decide, List.not_mem_nil⟩)]
      rfl
    rw [ho]
    omega

end Cert.LibGatherRows
-- ==== Proof.LibGraphOps.lean ====
/-
  Host operations of a graph computation read at an index: the float scatter-add of a VECTOR of updates into a vector
  named by an [N, 1] array of positions (a count or a segment sum of scalars), the gather of single elements of a vector
  at an [R, 1] array of positions, a vector laid out as an [n, 1] column, the wrap of a negative position, and the
  signed value of a counter word.
-/
import Idealize.ShloMosaic.Lib.ValueIdx
import Idealize.ShloMosaic.PureOps.Ideal
import Idealize.ShloMosaic.Lib.Pipeline.Value

noncomputable section

open scoped BigOperators

namespace Cert.LibGraphOps

open Idealize.ShloMosaic Idealize.ShloMosaic.ValueIdx

/-- The dimension numbers of a scalar segment sum: operand `[S]`, scatter indices `[N, 1]`, updates `[N]`; no window
    axis, the operand's one axis is inserted and is the one the index names, the index vector lies on axis 1. -/
abbrev vecScatterDims (S N : ℕ) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

section
variable {S N w : ℕ} (wf : ScatterDims.WF ⟨1, ![S]⟩ ⟨2, ![N, 1]⟩ ⟨1, ![N]⟩ [] [0] [0] 1)

/-- A rank-1 index set is its coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis an update's window starts at its position `idx[n, 0]`, read as a signed integer. -/
theorem vstart0 (idx : IVec ⟨2, ![N, 1]⟩ w) (n : Fin N) :
    (vecScatterDims S N wf).start (ix1 n) idx 0 = (idx (ix2 n (0 : Fin 1))).toInt := by
  unfold ScatterDims.start
  rw [dif_pos (show (0 : Fin 1) ∈ (vecScatterDims S N wf).scatterDimsToOperandDims from List.mem_singleton.mpr rfl)]
  congr 2
  funext b
  refine Fin.ext ?_
  match b with
  | ⟨0, _⟩ => rfl
  | ⟨1, _⟩ => rfl

/-- The operand's one axis is inserted: the window coordinate there is `0`. -/
theorem vwindow0 (n : Fin N) : (vecScatterDims S N wf).window (ix1 n) 0 = 0 := by
  unfold ScatterDims.window
  rw [dif_neg (show ¬ (0 : Fin 1) ∈ (vecScatterDims S N wf).sKept from
    (show (0 : Fin 1) ∉ (List.finRange 1).filter (fun a => a ∉ [(0 : Fin 1)]) by decide))]

/-- WHERE AN UPDATE LANDS: update `n` lands on operand element `s` exactly when the position `idx[n, 0]`, read as a
    signed integer and not clamped, is `s`. A position outside `[0, S)` lands nowhere: the update is dropped. -/
theorem resultIdx_vec (idx : IVec ⟨2, ![N, 1]⟩ w) (n : Fin N) (s : Fin S) :
    (vecScatterDims S N wf).resultIdx? (ix1 n) idx = some (ix1 s) ↔
      (idx (ix2 n (0 : Fin 1))).toInt = (s.val : ℤ) := by
  have e0 : (vecScatterDims S N wf).start (ix1 n) idx 0 + ((vecScatterDims S N wf).window (ix1 n) 0 : ℕ)
      = (idx (ix2 n (0 : Fin 1))).toInt := by
    rw [vstart0, vwindow0]; simp
  unfold ScatterDims.resultIdx?
  constructor
  · intro h
    split at h
    · next hall =>
      have h' := Option.some.inj h
      have h0 : ((vecScatterDims S N wf).start (ix1 n) idx 0 + ((vecScatterDims S N wf).window (ix1 n) 0 : ℕ)).toNat = s.val :=
        congrArg (fun i => (i 0).val) h'
      have p0 := (hall 0).1
      rw [e0] at h0 p0
      omega
    · exact absurd h (by simp)
  · intro hs
    have hall : ∀ a : Fin 1, 0 ≤ (vecScatterDims S N wf).start (ix1 n) idx a + ((vecScatterDims S N wf).window (ix1 n) a : ℕ) ∧
        (vecScatterDims S N wf).start (ix1 n) idx a + ((vecScatterDims S N wf).window (ix1 n) a : ℕ)
          < ((⟨1, ![S]⟩ : Shape).size a : ℕ) := by
      intro a
      match a with
      | ⟨0, _⟩ =>
        have := s.isLt
        show 0 ≤ (vecScatterDims S N wf).start (ix1 n) idx 0 + ((vecScatterDims S N wf).window (ix1 n) 0 : ℕ) ∧
          (vecScatterDims S N wf).start (ix1 n) idx 0 + ((vecScatterDims S N wf).window (ix1 n) 0 : ℕ) < (S : ℤ)
        rw [e0, hs]; omega
    rw [dif_pos hall]
    congr 1
    funext a
    refine Fin.ext ?_
    match a with
    | ⟨0, _⟩ =>
      show ((vecScatterDims S N wf).start (ix1 n) idx 0 + ((vecScatterDims S N wf).window (ix1 n) 0 : ℕ)).toNat = s.val
      rw [e0, hs]; omega

end

/-- THE SCALAR SEGMENT SUM READ AT `s`: the operand there plus the sum, over the updates `n` whose position
    `idx[n, 0]` (signed, not clamped) is `s`, of the update. -/
theorem scatterAdd_vec_apply {S N w : ℕ} (wf : ScatterDims.WF ⟨1, ![S]⟩ ⟨2, ![N, 1]⟩ ⟨1, ![N]⟩ [] [0] [0] 1)
    (x : (⟨1, ![S]⟩ : Shape).Idx → EReal) (idx : IVec ⟨2, ![N, 1]⟩ w)
    (upd : (⟨1, ![N]⟩ : Shape).Idx → EReal) (s : Fin S) :
    Ideal.hostScatterAdd (vecScatterDims S N wf) x idx upd (ix1 s)
      = x (ix1 s) + ∑ n : Fin N, (if (idx (ix2 n (0 : Fin 1))).toInt = (s.val : ℤ) then upd (ix1 n) else 0) := by
  unfold Ideal.hostScatterAdd
  congr 1
  rw [Finset.sum_filter, sum_idx1]
  refine Finset.sum_congr rfl (fun n _ => ?_)
  simp only [resultIdx_vec]

/-- The dimension numbers of an element gather: operand `[N]`, start indices `[R, 1]`, result `[R]`. -/
abbrev vecGatherDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `o`: the operand at position `idx[o, 0]` (signed, clamped into `[0, N − 1]`). -/
theorem gather_vec_apply {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (o : Fin R) :
    Host.gather (vecGatherDims N R wf) x idx (ix1 o)
      = x (ix1 ⟨min (idx (ix2 o (0 : Fin 1))).toInt.toNat (N - 1), by omega⟩) := by
  unfold Host.gather
  congr 1
  funext a
  obtain rfl : a = 0 := Subsingleton.elim _ _
  refine Fin.ext ?_
  show (vecGatherDims N R wf).start (ix1 o) idx 0 + (vecGatherDims N R wf).batchCoord (ix1 o) 0
      + (vecGatherDims N R wf).offCoord (ix1 o) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 o) ⟨List.idxOf (0 : Fin 1) (vecGatherDims N R wf).startIndexMap,
      List.idxOf_lt_length_iff.2 (List.mem_singleton.mpr rfl)⟩ = ix2 o (0 : Fin 1) := by
    funext b; refine Fin.ext ?_
    match b with
    | ⟨0, _⟩ => rfl
    | ⟨1, _⟩ => rfl
  rw [hsi]
  rfl

/-- A vector laid out as an `[n, 1]` column, read at `(j, 0)`. -/
theorem bcast_col_apply {α : Type} {n : ℕ}
    (h : (⟨1, ![n]⟩ : Shape).BroadcastsInDim ⟨2, ![n, 1]⟩ (![0] : Fin 1 → Fin 2))
    (v : (⟨1, ![n]⟩ : Shape).Idx → α) (j : Fin n) (z : Fin 1) :
    broadcastInDim (⟨2, ![n, 1]⟩ : Shape) (![0] : Fin 1 → Fin 2) h v (ix2 j z) = v (ix1 j) := by
  refine broadcastInDim_apply _ h v (ix2 j z) (ix1 j) (fun a => ?_)
  match a with
  | ⟨0, _⟩ =>
    show j.val = if n = 1 then 0 else j.val
    by_cases hn : n = 1
    · rw [if_pos hn]; have := j.isLt; omega
    · rw [if_neg hn]

/-- THE WRAP OF A NEGATIVE POSITION (`select(v < 0, v + k, v)`, signed) leaves a non-negative word alone. -/
theorem wrap_nonneg (v k : BitVec 32) (h : 0 ≤ v.toInt) :
    Scalar.select (IntOp.cmpi .slt v 0#32) (IntOp.addi v k) v = v := by
  have hs : v.slt 0#32 = false := by
    rw [Bool.eq_false_iff]
    intro hlt
    rw [BitVec.slt_iff_toInt_lt] at hlt
    simp at hlt
    omega
  unfold Scalar.select IntOp.cmpi
  simp only [hs]
  rw [if_neg (by decide)]

/-- The counter word at position `l` below 2^31 is `l` as a signed integer. -/
theorem ofNat_toInt (l : ℕ) (h : l < 2147483648) : (BitVec.ofNat 32 l).toInt = (l : ℤ) := by
  unfold BitVec.toInt
  rw [BitVec.toNat_ofNat, Nat.mod_eq_of_lt (show l < 2 ^ 32 by omega)]
  rw [if_pos (by omega)]

end Cert.LibGraphOps

end
-- ==== Proof.KerPoint.lean ====
/-
  The node-scaled program's stage functions read at an index, for an edge array whose entries are node numbers:
  the rows of the edge array, the column of node scales, the aggregation of an array along the edges, and with them
  the whole program's function at `(n, g)` as the node-scaled network of the specification.
-/
import proofs.«156284_j70136815943923_2_alg».proof.Proof.KerValue
import proofs.«156284_j70136815943923_2_alg».proof.Proof.LibSegPool
import proofs.«156284_j70136815943923_2_alg».proof.Proof.LibGatherRows
import proofs.«156284_j70136815943923_2_alg».proof.Proof.LibGraphOps
import Idealize.ShloMosaic.Lib.Pipeline.Value
import Idealize.ShloMosaic.Lib.ValueIdx

set_option maxRecDepth 16384

noncomputable section

open scoped BigOperators

namespace Cert.Gcn.KerH

open Idealize.ShloMosaic Idealize.ShloMosaic.ValueIdx
open Cert.KernelIdeal Cert.KernelIdeal.Gen

/-! ## The rows of the edge array -/

theorem srcArr_apply (x1 : IVec S2x1600000 32) (e : Fin 1600000) : srcArr x1 (ix1 e) = x1 (ix2 (0 : Fin 2) e) := by
  unfold srcArr
  generalize hy : extractStridedSlice S1x1600000 ![0, 0] x1 slices_S2x1600000_S1x1600000_0_0 = y
  rw [shapeCast_apply y shapeCasts_S1x1600000_S1600000 (ix1 e) (ix2 (0 : Fin 1) e)
    (by rewrite [Shape.rowMajor_val_two, Shape.rowMajor_val_one]; show 0 * 1600000 + e.val = e.val; omega), ← hy]
  exact extractStridedSlice_apply ![0, 0] x1 slices_S2x1600000_S1x1600000_0_0 (ix2 (0 : Fin 1) e) (ix2 (0 : Fin 2) e)
    (fun a => match a with
      | ⟨0, _⟩ => by show (0 : ℕ) = 0 + 0; rfl
      | ⟨1, _⟩ => by show e.val = 0 + e.val; omega)

theorem dstArr_apply (x1 : IVec S2x1600000 32) (e : Fin 1600000) : dstArr x1 (ix1 e) = x1 (ix2 (1 : Fin 2) e) := by
  unfold dstArr
  generalize hy : extractStridedSlice S1x1600000 ![1, 0] x1 slices_S2x1600000_S1x1600000_1_0 = y
  rw [shapeCast_apply y shapeCasts_S1x1600000_S1600000 (ix1 e) (ix2 (0 : Fin 1) e)
    (by rewrite [Shape.rowMajor_val_two, Shape.rowMajor_val_one]; show 0 * 1600000 + e.val = e.val; omega), ← hy]
  exact extractStridedSlice_apply ![1, 0] x1 slices_S2x1600000_S1x1600000_1_0 (ix2 (0 : Fin 1) e) (ix2 (1 : Fin 2) e)
    (fun a => match a with
      | ⟨0, _⟩ => by show (1 : ℕ) = 1 + 0; rfl
      | ⟨1, _⟩ => by show e.val = 0 + e.val; omega)

section InRange
variable (x1 : IVec S2x1600000 32) (H : InRange x1)
include H

theorem src_toInt (e : Fin 1600000) : (srcArr x1 (ix1 e)).toInt = ((nodeAt x1 0 e).val : ℤ) := by
  rw [srcArr_apply]; exact (nodeAt_val H 0 e).symm

theorem dst_toInt (e : Fin 1600000) : (dstArr x1 (ix1 e)).toInt = ((nodeAt x1 1 e).val : ℤ) := by
  rw [dstArr_apply]; exact (nodeAt_val H 1 e).symm

/-- The wrap leaves the sources alone: they are not negative. -/
theorem wrap_src : wrapArr (srcArr x1) = srcArr x1 := by
  funext i
  obtain ⟨e, rfl⟩ : ∃ e : Fin 1600000, i = ix1 e := ⟨i 0, eq_ix1 i⟩
  have h0 : 0 ≤ (srcArr x1 (ix1 e)).toInt := by rw [src_toInt x1 H e]; exact Int.natCast_nonneg _
  exact Cert.LibGraphOps.wrap_nonneg _ _ h0

/-! ## The column of node scales -/

omit H in
/-- A scalar constant broadcast to any shape, read anywhere, is the constant's word. -/
theorem bcast_const_apply {t : Shape} (h : S_.BroadcastsInDim t (![] : Fin 0 → Fin t.rank)) (w : BitVec 32) (i : t.Idx) :
    broadcastInDim t ![] h (constant (F := Ideal) S_ .f32 w) i = Ideal.ofBits .f32 w := rfl

omit H in
/-- `rsqrt(max(A + B, C))` of arrays, read at an index, is that of the entries. -/
theorem rsqrt_max_add_apply {s : Shape} (A B C : FVec Ideal s .f32) (i : s.Idx) :
    Host.rsqrt (F := Ideal) (maximumf (addf A B) C) i = Ideal.rsqrt (max (A i + B i) (C i)) := rfl

omit H in
/-- The host's float scatter-add on the extended reals is the exact one. -/
theorem scatterAdd_ideal {s si su : Shape} {w : ℕ} (d : ScatterDims s si su) (x : FVec Ideal s .f32) (idx : IVec si w)
    (upd : FVec Ideal su .f32) : Host.scatterAdd (F := Ideal) d x idx upd = Ideal.hostScatterAdd d x idx upd := rfl

/-- The ones arriving at `n`: the sum the scatter leaves is the specification's count. -/
theorem count_eq (n : Fin 100000) :
    (∑ e : Fin 1600000,
      if (broadcastInDim S1600000x1 ![0] bcast_S1600000_S1600000x1_0 (dstArr x1) (ix2 e (0 : Fin 1))).toInt = ((n.val : ℕ) : ℤ) then
        broadcastInDim S1600000 ![] bcast_S_S1600000 (constant (F := Ideal) S_ .f32 0x3F800000#32) (ix1 e)
      else 0) = cnt (nodeAt x1 1) n := by
  unfold cnt
  refine Finset.sum_congr rfl fun e _ => ?_
  rw [Cert.LibGraphOps.bcast_col_apply, bcast_const_apply, dst_toInt x1 H e]
  by_cases h : nodeAt x1 1 e = n
  · rw [if_pos h, if_pos (by rw [h])]
  · rw [if_neg h, if_neg (fun hh => h (Fin.ext (by exact_mod_cast hh)))]

theorem dcol_apply (n : Fin 100000) : dcolArr (dstArr x1) (ix2 n (0 : Fin 1)) = dinvK (nodeAt x1 1) n := by
  unfold dcolArr
  rw [Cert.LibGraphOps.bcast_col_apply, rsqrt_max_add_apply, scatterAdd_ideal, bcast_const_apply]
  have key : Ideal.hostScatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dstArr x1))
      (broadcastInDim S1600000 ![] bcast_S_S1600000 (constant (F := Ideal) S_ .f32 0x3F800000#32)) (ix1 n)
      = _ :=
    Cert.LibGraphOps.scatterAdd_vec_apply (S := 100000) (N := 1600000) scatter_S100000_S1600000x1_S1600000_n_0_0_1.wf _ _ _ n
  rw [key, bcast_const_apply, count_eq x1 H n]
  rfl

end InRange

/-! ## The aggregation along the edges, for any number of columns -/

theorem agg_core {C : ℕ}
    (wfS : ScatterDims.WF ⟨2, ![100000, C]⟩ ⟨2, ![1600000, 1]⟩ ⟨2, ![1600000, C]⟩ [1] [0] [0] 1)
    (wfG : GatherDims.WF ⟨2, ![100000, C]⟩ ⟨2, ![1600000, 1]⟩ ⟨2, ![1600000, C]⟩ [1] [0] [] [0] [] 1 ![1, C])
    (hbc : (⟨1, ![1600000]⟩ : Shape).BroadcastsInDim ⟨2, ![1600000, 1]⟩ (![0] : Fin 1 → Fin 2))
    (Z Ys : (⟨2, ![100000, C]⟩ : Shape).Idx → EReal) (srcv dstv : IVec ⟨1, ![1600000]⟩ 32)
    (s d : Fin 1600000 → Fin 100000)
    (hs : ∀ e, (srcv (ix1 e)).toInt = ((s e).val : ℤ)) (hd : ∀ e, (dstv (ix1 e)).toInt = ((d e).val : ℤ))
    (n : Fin 100000) (f : Fin C) :
    Ideal.hostScatterAdd (Cert.LibSegPool.poolDims 100000 1600000 C wfS) Z
        (broadcastInDim (⟨2, ![1600000, 1]⟩ : Shape) (![0] : Fin 1 → Fin 2) hbc dstv)
        (Host.gather (Cert.LibGatherRows.rowsDims 100000 C 1600000 wfG) Ys
          (broadcastInDim (⟨2, ![1600000, 1]⟩ : Shape) (![0] : Fin 1 → Fin 2) hbc srcv)) (ix2 n f)
      = Z (ix2 n f) + ∑ e : Fin 1600000, if d e = n then Ys (ix2 (s e) f) else 0 := by
  rw [Cert.LibSegPool.scatterAdd_pool_apply]
  refine congrArg (Z (ix2 n f) + ·) (Finset.sum_congr rfl fun e _ => ?_)
  rw [Cert.LibGraphOps.bcast_col_apply, hd e]
  have hg : Host.gather (Cert.LibGatherRows.rowsDims 100000 C 1600000 wfG) Ys
      (broadcastInDim (⟨2, ![1600000, 1]⟩ : Shape) (![0] : Fin 1 → Fin 2) hbc srcv) (ix2 e f) = Ys (ix2 (s e) f) := by
    rw [Cert.LibGatherRows.gather_rows_apply (by norm_num : 0 < 100000)]
    congr 2
    refine Fin.ext ?_
    show min (broadcastInDim (⟨2, ![1600000, 1]⟩ : Shape) (![0] : Fin 1 → Fin 2) hbc srcv (ix2 e (0 : Fin 1))).toInt.toNat (100000 - 1) = (s e).val
    rw [Cert.LibGraphOps.bcast_col_apply, hs e]
    have := (s e).isLt
    omega
  by_cases h : d e = n
  · rw [if_pos h, if_pos (by rw [h]), hg]
  · rw [if_neg h, if_neg (fun hh => h (Fin.ext (by exact_mod_cast hh)))]

/-! ## The program's own aggregations, bias row and last lines -/

/-- The first bias laid out as a [1, 128] row, read at `(0, f)`. -/
theorem browArr_apply (x3 : FVec Ideal S128 .f32) (f : Fin 128) : browArr x3 (ix2 (0 : Fin 1) f) = x3 (ix1 f) := by
  unfold browArr
  exact shapeCast_apply x3 shapeCasts_S128_S1x128 (ix2 (0 : Fin 1) f) (ix1 f)
    (by rewrite [Shape.rowMajor_val_two, Shape.rowMajor_val_one]; show f.val = 0 * 128 + f.val; omega)

/-- The last lines at `(n, g)`: `dcol(n,0) · agg(n,g) + b2(g)`. -/
theorem outArr_apply (dcol : FVec Ideal S100000x1 .f32) (A : FVec Ideal S100000x64 .f32) (x5 : FVec Ideal S64 .f32)
    (n : Fin 100000) (g : Fin 64) :
    outArr dcol A x5 (ix2 n g) = dcol (ix2 n (0 : Fin 1)) * A (ix2 n g) + x5 (ix1 g) := by
  unfold outArr
  rw [ValueIdx.addf_apply, ValueIdx.mulf_apply]
  rw [broadcastInDim_apply ![0, 1] bcast_S100000x1_S100000x64_0_1 dcol (ix2 n g) (ix2 n (0 : Fin 1))
    (fun a => match a with
      | ⟨0, _⟩ => by show n.val = if (100000 : ℕ) = 1 then 0 else n.val; rw [if_neg (by decide)]
      | ⟨1, _⟩ => by show (0 : ℕ) = if (1 : ℕ) = 1 then 0 else g.val; rw [if_pos rfl])]
  rw [broadcastInDim_apply ![0, 1] bcast_S1x64_S100000x64_0_1 _ (ix2 n g) (ix2 (0 : Fin 1) g)
    (fun a => match a with
      | ⟨0, _⟩ => by show (0 : ℕ) = if (1 : ℕ) = 1 then 0 else n.val; rw [if_pos rfl]
      | ⟨1, _⟩ => by show g.val = if (64 : ℕ) = 1 then 0 else g.val; rw [if_neg (by decide)])]
  rw [broadcastInDim_apply ![1] bcast_S64_S1x64_1 x5 (ix2 (0 : Fin 1) g) (ix1 g)
    (fun a => match a with
      | ⟨0, _⟩ => by show g.val = if (64 : ℕ) = 1 then 0 else g.val; rw [if_neg (by decide)])]

section Aggregations
variable (x1 : IVec S2x1600000 32) (H : InRange x1)
include H

theorem agg128_apply (Ys : FVec Ideal S100000x128 .f32) (n : Fin 100000) (f : Fin 128) :
    agg128 (srcArr x1) (dstArr x1) Ys (ix2 n f)
      = (zeroW + ∑ e : Fin 1600000, if nodeAt x1 1 e = n then Ys (ix2 (nodeAt x1 0 e) f) else 0) + Ys (ix2 n f) := by
  unfold agg128
  rw [wrap_src x1 H, ValueIdx.addf_apply, scatterAdd_ideal]
  have key : Ideal.hostScatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dstArr x1))
      (Host.gather gather_S100000x128_S1600000x1_S1600000x128_1_0_n_n_0_1_1128 Ys
        (broadcastInDim S1600000x1 ![0] bcast_S1600000_S1600000x1_0 (srcArr x1))) (ix2 n f)
      = _ :=
    agg_core (C := 128) scatter_S100000x128_S1600000x1_S1600000x128_1_0_0_1.wf
      gather_S100000x128_S1600000x1_S1600000x128_1_0_n_n_0_1_1128.wf bcast_S1600000_S1600000x1_0 _ Ys (srcArr x1) (dstArr x1)
      (nodeAt x1 0) (nodeAt x1 1) (src_toInt x1 H) (dst_toInt x1 H) n f
  rw [key, bcast_const_apply]

theorem agg64_apply (Ys : FVec Ideal S100000x64 .f32) (n : Fin 100000) (g : Fin 64) :
    agg64 (srcArr x1) (dstArr x1) Ys (ix2 n g)
      = (zeroW + ∑ e : Fin 1600000, if nodeAt x1 1 e = n then Ys (ix2 (nodeAt x1 0 e) g) else 0) + Ys (ix2 n g) := by
  unfold agg64
  rw [wrap_src x1 H, ValueIdx.addf_apply, scatterAdd_ideal]
  have key : Ideal.hostScatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dstArr x1))
      (Host.gather gather_S100000x64_S1600000x1_S1600000x64_1_0_n_n_0_1_164 Ys
        (broadcastInDim S1600000x1 ![0] bcast_S1600000_S1600000x1_0 (srcArr x1))) (ix2 n g)
      = _ :=
    agg_core (C := 64) scatter_S100000x64_S1600000x1_S1600000x64_1_0_0_1.wf
      gather_S100000x64_S1600000x1_S1600000x64_1_0_n_n_0_1_164.wf bcast_S1600000_S1600000x1_0 _ Ys (srcArr x1) (dstArr x1)
      (nodeAt x1 0) (nodeAt x1 1) (src_toInt x1 H) (dst_toInt x1 H) n g
  rw [key, bcast_const_apply]

/-! ## The whole program at an index -/

variable (x0 : FVec Ideal S100000x512 .f32) (x2 : FVec Ideal S512x128 .f32) (x3 : FVec Ideal S128 .f32)
  (x4 : FVec Ideal S128x64 .f32) (x5 : FVec Ideal S64 .f32)

/-- The first kernel's array is the scaled product of the specification. -/
theorem y1_at (m : Fin 100000) (f : Fin 128) :
    region0Fun x0 x2 (dcolArr (dstArr x1)) (ix2 m f)
      = scaled (dinvK (nodeAt x1 1)) (prod (mat x0) (mat x2)) m f := by
  show (∑ k : Fin 512, x0 (ix2 m k) * x2 (ix2 k f)) * dcolArr (dstArr x1) (ix2 m (0 : Fin 1)) = _
  rw [dcol_apply x1 H m]
  rfl

/-- The aggregate between the kernels is the specification's. -/
theorem a1_at (m : Fin 100000) (f : Fin 128) :
    agg128 (srcArr x1) (dstArr x1) (region0Fun x0 x2 (dcolArr (dstArr x1))) (ix2 m f)
      = aggK (nodeAt x1 0) (nodeAt x1 1) (dinvK (nodeAt x1 1)) (prod (mat x0) (mat x2)) m f := by
  have hsum : (∑ e : Fin 1600000, if nodeAt x1 1 e = m then region0Fun x0 x2 (dcolArr (dstArr x1)) (ix2 (nodeAt x1 0 e) f) else 0)
      = ∑ e : Fin 1600000, if nodeAt x1 1 e = m then scaled (dinvK (nodeAt x1 1)) (prod (mat x0) (mat x2)) (nodeAt x1 0 e) f else 0 :=
    Finset.sum_congr rfl fun e _ => by rw [y1_at x1 H x0 x2 (nodeAt x1 0 e) f]
  rw [agg128_apply x1 H, y1_at x1 H x0 x2 m f, hsum]
  rfl

/-- The second kernel's array is the scaled product of the hidden layer of the specification. -/
theorem y2_at (m : Fin 100000) (g : Fin 64) :
    region1Fun (agg128 (srcArr x1) (dstArr x1) (region0Fun x0 x2 (dcolArr (dstArr x1)))) (dcolArr (dstArr x1)) (browArr x3) x4 (ix2 m g)
      = scaled (dinvK (nodeAt x1 1))
          (prod (hidK (nodeAt x1 0) (nodeAt x1 1) (dinvK (nodeAt x1 1)) (prod (mat x0) (mat x2)) (vec x3)) (mat x4)) m g := by
  show (∑ f : Fin 128, max (agg128 (srcArr x1) (dstArr x1) (region0Fun x0 x2 (dcolArr (dstArr x1))) (ix2 m f)
        * dcolArr (dstArr x1) (ix2 m (0 : Fin 1)) + browArr x3 (ix2 (0 : Fin 1) f)) zeroW * x4 (ix2 f g))
      * dcolArr (dstArr x1) (ix2 m (0 : Fin 1)) = _
  have hsum : (∑ f : Fin 128, max (agg128 (srcArr x1) (dstArr x1) (region0Fun x0 x2 (dcolArr (dstArr x1))) (ix2 m f)
        * dinvK (nodeAt x1 1) m + browArr x3 (ix2 (0 : Fin 1) f)) zeroW * x4 (ix2 f g))
      = ∑ f : Fin 128, max (aggK (nodeAt x1 0) (nodeAt x1 1) (dinvK (nodeAt x1 1)) (prod (mat x0) (mat x2)) m f
        * dinvK (nodeAt x1 1) m + x3 (ix1 f)) zeroW * x4 (ix2 f g) :=
    Finset.sum_congr rfl fun f _ => by rw [a1_at x1 H x0 x2 m f, browArr_apply]
  rw [dcol_apply x1 H m, hsum]
  rfl

/-- THE PROGRAM'S FUNCTION AT `(n, g)` is the node-scaled network of the specification. -/
theorem kerFun_apply (n : Fin 100000) (g : Fin 64) :
    kerFun x0 x1 x2 x3 x4 x5 (ix2 n g) = kernelOut x0 x1 x2 x3 x4 x5 n g := by
  unfold kerFun
  have hsum : (∑ e : Fin 1600000, if nodeAt x1 1 e = n then
        region1Fun (agg128 (srcArr x1) (dstArr x1) (region0Fun x0 x2 (dcolArr (dstArr x1)))) (dcolArr (dstArr x1)) (browArr x3) x4
          (ix2 (nodeAt x1 0 e) g) else 0)
      = ∑ e : Fin 1600000, if nodeAt x1 1 e = n then
        scaled (dinvK (nodeAt x1 1))
          (prod (hidK (nodeAt x1 0) (nodeAt x1 1) (dinvK (nodeAt x1 1)) (prod (mat x0) (mat x2)) (vec x3)) (mat x4)) (nodeAt x1 0 e) g else 0 :=
    Finset.sum_congr rfl fun e _ => by rw [y2_at x1 H x0 x2 x3 x4 (nodeAt x1 0 e) g]
  rw [outArr_apply, dcol_apply x1 H n, agg64_apply x1 H, y2_at x1 H x0 x2 x3 x4 n g, hsum]
  rfl

end Aggregations

end Cert.Gcn.KerH

end
-- ==== Proof.LibConcat2.lean ====
/-
  Two matrices joined along one axis, read at an index given by coordinates; and a sum over a range cut in two.

  Two pieces [R, C₁] and [R, C₂] laid side by side along axis 1 read, at (r, g), the first piece at (r, g) when
  column g is one of its own, and the second at (r, g − C₁) otherwise. Two pieces [R₁, C] and [R₂, C] stacked
  along axis 0 read, at (r, g), the first at (r, g) when row r is one of its own, and the second at (r − R₁, g)
  otherwise. The position inside the piece is given as a coordinate of its own with the equation that ties it to
  the joined coordinate, so that no subtraction appears in a statement.

  A sum over a + b positions is the sum over the first a plus the sum over the last b.
-/
import Idealize.ShloMosaic.Lib.Pipeline.Value
import Idealize.ShloMosaic.Lib.ValueIdx

open scoped BigOperators

namespace Cert.LibConcat2

open Idealize.ShloMosaic Idealize.ShloMosaic.ValueIdx

variable {α : Type}

/-- Side by side, a column of the first piece. -/
theorem cols_left {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₁) (hg : g'.val = g.val) :
    concatenate ⟨2, ![R, C]⟩ 1 [⟨⟨2, ![R, C₁]⟩, a⟩, ⟨⟨2, ![R, C₂]⟩, b⟩] h (ix2 r g) = a (ix2 r g') :=
  concatenate_pair_apply_left 1 a b h (ix2 r g) rfl (ix2 r g') fun ax => by
    match ax with
    | ⟨0, _⟩ => rfl
    | ⟨1, _⟩ => exact hg

/-- Side by side, a column of the second piece. -/
theorem cols_right {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₂) (hg : g'.val + C₁ = g.val) :
    concatenate ⟨2, ![R, C]⟩ 1 [⟨⟨2, ![R, C₁]⟩, a⟩, ⟨⟨2, ![R, C₂]⟩, b⟩] h (ix2 r g) = b (ix2 r g') :=
  concatenate_pair_apply_right 1 a b h (ix2 r g) rfl rfl (ix2 r g')
    (fun ax hne => by
      match ax with
      | ⟨0, _⟩ => rfl
      | ⟨1, _⟩ => exact absurd rfl hne)
    hg

/-- Stacked, a row of the first piece. -/
theorem rows_left {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₁) (hr : r'.val = r.val) (g : Fin C) :
    concatenate ⟨2, ![R, C]⟩ 0 [⟨⟨2, ![R₁, C]⟩, a⟩, ⟨⟨2, ![R₂, C]⟩, b⟩] h (ix2 r g) = a (ix2 r' g) :=
  concatenate_pair_apply_left 0 a b h (ix2 r g) rfl (ix2 r' g) fun ax => by
    match ax with
    | ⟨0, _⟩ => exact hr
    | ⟨1, _⟩ => rfl

/-- Stacked, a row of the second piece. -/
theorem rows_right {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₂) (hr : r'.val + R₁ = r.val) (g : Fin C) :
    concatenate ⟨2, ![R, C]⟩ 0 [⟨⟨2, ![R₁, C]⟩, a⟩, ⟨⟨2, ![R₂, C]⟩, b⟩] h (ix2 r g) = b (ix2 r' g) :=
  concatenate_pair_apply_right 0 a b h (ix2 r g) rfl rfl (ix2 r' g)
    (fun ax hne => by
      match ax with
      | ⟨0, _⟩ => exact absurd rfl hne
      | ⟨1, _⟩ => rfl)
    hr

/-- A sum over a + b positions, cut after the first a. -/
theorem sum_two_blocks {M : Type*} [AddCommMonoid M] {a b n : ℕ} (hn : a + b = n) (f : Fin n → M) :
    ∑ l : Fin n, f l
      = ∑ l : Fin a, f ⟨l.val, by have := l.isLt; omega⟩ + ∑ l : Fin b, f ⟨a + l.val, by have := l.isLt; omega⟩ := by
  subst hn
  exact Fin.sum_univ_add f

end Cert.LibConcat2
-- ==== Proof.RefIndex.lean ====
/-
  The index half of the edge-scaled form's read. The list of edges is extended by one loop per node: the extended
  source list is the source row followed by the counter 0, 1, …, 99999, the extended destination list likewise.
  Read as signed integers these are node numbers, so wrapping a negative position changes nothing; the degree is the
  count of arrivals plus the loop's one, and the per-edge scale is the product of the two endpoints' inverse roots.
-/
import proofs.«156284_j70136815943923_2_alg».proof.Proof.Gen.ReferenceIdeal.Read
import proofs.«156284_j70136815943923_2_alg».proof.Proof.GcnSpec
import proofs.«156284_j70136815943923_2_alg».proof.Proof.LibGraphOps
import proofs.«156284_j70136815943923_2_alg».proof.Proof.LibConcat2

noncomputable section

open scoped BigOperators

namespace Cert.Gcn.Ref

open Cert.ReferenceIdeal Cert.ReferenceIdeal.Read Cert.Gcn Idealize.ShloMosaic Idealize.ShloMosaic.ValueIdx

/-- The extended source list: edge `j`'s source, then node `j − 1600000` for the loops. -/
def s2 (x1 : EdgeArr) (j : Fin 1700000) : Fin 100000 :=
  if h : j.val < 1600000 then nodeAt x1 0 ⟨j.val, h⟩ else ⟨j.val - 1600000, by omega⟩
/-- The extended destination list: edge `j`'s destination, then node `j − 1600000` for the loops. -/
def d2 (x1 : EdgeArr) (j : Fin 1700000) : Fin 100000 :=
  if h : j.val < 1600000 then nodeAt x1 1 ⟨j.val, h⟩ else ⟨j.val - 1600000, by omega⟩

/-- Row 0 of the edge array, flattened, at `e`. -/
theorem row0_read (x1 : EdgeArr) (e : Fin 1600000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Row 1 of the edge array, flattened, at `e`. -/
theorem row1_read (x1 : EdgeArr) (e : Fin 1600000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- A row followed by the counter, in its first block. -/
theorem cat_left (r : (⟨1, ![1600000]⟩ : Shape).Idx → BitVec 32) (j : Fin 1700000) (h : j.val < 1600000) :
    concatenate S1700000 0 [⟨S1600000, r⟩, ⟨S100000, val_main_v5 (F := Ideal)⟩]
      Facts₀.concatenates_S1600000_S100000_S1700000_d0 (ix1 j) = r (ix1 ⟨j.val, h⟩) :=
  concatenate_pair_apply_left 0 r (val_main_v5 (F := Ideal)) _ (ix1 j) rfl (ix1 ⟨j.val, h⟩) fun b => by
    match b with
    | ⟨0, _⟩ => rfl

/-- A row followed by the counter, in the counter's block. -/
theorem cat_right (r : (⟨1, ![1600000]⟩ : Shape).Idx → BitVec 32) (j : Fin 1700000) (h : ¬ j.val < 1600000) :
    concatenate S1700000 0 [⟨S1600000, r⟩, ⟨S100000, val_main_v5 (F := Ideal)⟩]
      Facts₀.concatenates_S1600000_S100000_S1700000_d0 (ix1 j) = BitVec.ofNat 32 (j.val - 1600000) :=
  concatenate_pair_apply_right 0 r (val_main_v5 (F := Ideal)) _ (ix1 j) rfl rfl
    (ix1 (⟨j.val - 1600000, by have := j.isLt; omega⟩ : Fin 100000))
    (fun b hne => by
      match b with
      | ⟨0, _⟩ => exact absurd rfl hne)
    (by show j.val - 1600000 + 1600000 = j.val; omega)

variable (x1 : EdgeArr)

theorem src2_toInt (H : InRange x1) (j : Fin 1700000) :
    (val_main_v6 (F := Ideal) x1 (ix1 j)).toInt = ((s2 x1 j).val : ℤ) := by
  unfold val_main_v6 s2
  by_cases h : j.val < 1600000
  · rw [cat_left _ j h, dif_pos h, row0_read, nodeAt_val H]
  · rw [cat_right _ j h, dif_neg h]
    exact Cert.LibGraphOps.ofNat_toInt _ (by have := j.isLt; omega)

theorem dst2_toInt (H : InRange x1) (j : Fin 1700000) :
    (val_main_v7 (F := Ideal) x1 (ix1 j)).toInt = ((d2 x1 j).val : ℤ) := by
  unfold val_main_v7 d2
  by_cases h : j.val < 1600000
  · rw [cat_left _ j h, dif_pos h, row1_read, nodeAt_val H]
  · rw [cat_right _ j h, dif_neg h]
    exact Cert.LibGraphOps.ofNat_toInt _ (by have := j.isLt; omega)

theorem src2_nonneg (H : InRange x1) (i : (⟨1, ![1700000]⟩ : Shape).Idx) :
    0 ≤ (val_main_v6 (F := Ideal) x1 i).toInt := by
  obtain ⟨a, rfl⟩ : ∃ a : Fin 1700000, i = ix1 a := ⟨i 0, eq_ix1 i⟩
  rw [src2_toInt x1 H]; exact Int.natCast_nonneg _

theorem dst2_nonneg (H : InRange x1) (i : (⟨1, ![1700000]⟩ : Shape).Idx) :
    0 ≤ (val_main_v7 (F := Ideal) x1 i).toInt := by
  obtain ⟨a, rfl⟩ : ∃ a : Fin 1700000, i = ix1 a := ⟨i 0, eq_ix1 i⟩
  rw [dst2_toInt x1 H]; exact Int.natCast_nonneg _

theorem wrap_src_a (H : InRange x1) : val_main_v24 (F := Ideal) x1 = val_main_v6 (F := Ideal) x1 := by
  funext i
  rw [val_main_v24_apply, val_main_v21_apply, val_main_v23_apply, val_main_v20_apply, val_main_c_3_apply]
  exact Cert.LibGraphOps.wrap_nonneg _ _ (src2_nonneg x1 H i)

theorem wrap_dst_a (H : InRange x1) : val_main_v31 (F := Ideal) x1 = val_main_v7 (F := Ideal) x1 := by
  funext i
  rw [val_main_v31_apply, val_main_v28_apply, val_main_v30_apply, val_main_v27_apply, val_main_c_5_apply]
  exact Cert.LibGraphOps.wrap_nonneg _ _ (dst2_nonneg x1 H i)

theorem wrap_src_b (H : InRange x1) : val_main_v39 (F := Ideal) x1 = val_main_v6 (F := Ideal) x1 := by
  funext i
  rw [val_main_v39_apply, val_main_v36_apply, val_main_v38_apply, val_main_v35_apply, val_main_c_7_apply]
  exact Cert.LibGraphOps.wrap_nonneg _ _ (src2_nonneg x1 H i)

theorem wrap_dst_deg (H : InRange x1) : val_main_v13 (F := Ideal) x1 = val_main_v7 (F := Ideal) x1 := by
  funext i
  rw [val_main_v13_apply, val_main_v10_apply, val_main_v12_apply, val_main_v9_apply, val_main_c_apply]
  exact Cert.LibGraphOps.wrap_nonneg _ _ (dst2_nonneg x1 H i)

/-! ## The degree -/

/-- Two members of a finite range are equal when their values agree as integers. -/
theorem fin_int_eq_iff {m : ℕ} (a b : Fin m) : ((a.val : ℤ) = (b.val : ℤ)) ↔ a = b := by
  rw [Int.natCast_inj, Fin.val_inj]

theorem d2_left (e : Fin 1600000) (h : e.val < 1700000) : d2 x1 ⟨e.val, h⟩ = nodeAt x1 1 e := by
  unfold d2; rw [dif_pos e.isLt]
theorem s2_left (e : Fin 1600000) (h : e.val < 1700000) : s2 x1 ⟨e.val, h⟩ = nodeAt x1 0 e := by
  unfold s2; rw [dif_pos e.isLt]
theorem d2_right (l : Fin 100000) (h : 1600000 + l.val < 1700000) : d2 x1 ⟨1600000 + l.val, h⟩ = l := by
  unfold d2; rw [dif_neg (by show ¬ 1600000 + l.val < 1600000; omega)]
  exact Fin.ext (by show 1600000 + l.val - 1600000 = l.val; omega)
theorem s2_right (l : Fin 100000) (h : 1600000 + l.val < 1700000) : s2 x1 ⟨1600000 + l.val, h⟩ = l := by
  unfold s2; rw [dif_neg (by show ¬ 1600000 + l.val < 1600000; omega)]
  exact Fin.ext (by show 1600000 + l.val - 1600000 = l.val; omega)

/-- The column of wrapped destinations the degree is counted over, at `(j, 0)`. -/
theorem dstcol_deg (H : InRange x1) (j : Fin 1700000) :
    (val_main_v14 (F := Ideal) x1 (ix2 j (0 : Fin 1))).toInt = ((d2 x1 j).val : ℤ) := by
  unfold val_main_v14
  rw [Cert.LibGraphOps.bcast_col_apply, wrap_dst_deg x1 H, dst2_toInt x1 H]

theorem ones_read (j : Fin 1700000) : val_main_v15 (F := Ideal) (ix1 j) = oneW := by
  rw [val_main_v15_apply, val_main_cst_1_apply]; rfl
theorem zeros_read (n : Fin 100000) : val_main_v8 (F := Ideal) (ix1 n) = zeroW := by
  rw [val_main_v8_apply, val_main_cst_apply]; rfl

/-- Adding equals to equals. -/
theorem add_congr' {a a' b b' : EReal} (h1 : a = a') (h2 : b = b') : a + b = a' + b' := by rw [h1, h2]

theorem sdims_eq : scatter_S100000_S1700000x1_S1700000_n_0_0_1
    = Cert.LibGraphOps.vecScatterDims 100000 1700000 Facts₀.scatter_S100000_S1700000x1_S1700000_n_0_0_1_wf := rfl

/-- At the extended reals the host's accumulating scatter is the exact sum. -/
theorem scatterAdd_ideal {s si u : Shape} {w : ℕ} (d : ScatterDims s si u) (x : FVec Ideal s .f32) (idx : IVec si w)
    (upd : FVec Ideal u .f32) :
    Host.scatterAdd (F := Ideal) d x idx upd = Ideal.hostScatterAdd d x idx upd := rfl

/-- The degree as a sum over the extended destination list. -/
theorem deg_sum (H : InRange x1) (n : Fin 100000) :
    val_main_v16 (F := Ideal) x1 (ix1 n)
      = zeroW + ∑ j : Fin 1700000, (if ((d2 x1 j).val : ℤ) = (n.val : ℤ) then oneW else 0) := by
  unfold val_main_v16
  rw [scatterAdd_ideal, sdims_eq, Cert.LibGraphOps.scatterAdd_vec_apply, zeros_read]
  refine add_congr' rfl (Finset.sum_congr rfl (fun j _ => ?_))
  rw [dstcol_deg x1 H, ones_read]

/-- The sum over the extended list: the arrivals' ones, then the loop's one. -/
theorem sum_split (n : Fin 100000) :
    (∑ j : Fin 1700000, (if ((d2 x1 j).val : ℤ) = (n.val : ℤ) then oneW else 0))
      = cnt (nodeAt x1 1) n + oneW := by
  rw [Cert.LibConcat2.sum_two_blocks (a := 1600000) (b := 100000) (n := 1700000) rfl]
  refine add_congr' ?_ ?_
  · unfold cnt
    refine Finset.sum_congr rfl (fun e _ => ?_)
    rw [d2_left]
    exact if_congr (fin_int_eq_iff _ _) rfl rfl
  · refine (Finset.sum_congr rfl (fun l _ => ?_)).trans
      ((Finset.sum_ite_eq' Finset.univ n (fun _ => oneW)).trans (if_pos (Finset.mem_univ n)))
    rw [d2_right]
    exact if_congr (fin_int_eq_iff _ _) rfl rfl

/-- The degree: zero, plus the arrivals' ones and then the loop's one. -/
theorem deg_read (H : InRange x1) (n : Fin 100000) :
    val_main_v16 (F := Ideal) x1 (ix1 n) = degR (nodeAt x1 1) n := by
  unfold degR
  rw [deg_sum x1 H, sum_split x1 n]

theorem dinv_read (H : InRange x1) (n : Fin 100000) :
    val_main_v19 (F := Ideal) x1 (ix1 n) = dinvR (nodeAt x1 1) n := by
  rw [val_main_v19_apply, val_main_v18_apply, deg_read x1 H, val_main_v17_apply, val_main_cst_2_apply]
  rw [Ideal.hostUnary_rsqrt_def, Ideal.maximumf_def, Ideal.ofBits_def]
  unfold dinvR
  rfl

/-! ## The per-edge scale -/

theorem srccol_a (H : InRange x1) (j : Fin 1700000) :
    (val_main_v25 (F := Ideal) x1 (ix2 j (0 : Fin 1))).toInt = ((s2 x1 j).val : ℤ) := by
  unfold val_main_v25
  rw [Cert.LibGraphOps.bcast_col_apply, wrap_src_a x1 H, src2_toInt x1 H]

theorem dstcol_a (H : InRange x1) (j : Fin 1700000) :
    (val_main_v32 (F := Ideal) x1 (ix2 j (0 : Fin 1))).toInt = ((d2 x1 j).val : ℤ) := by
  unfold val_main_v32
  rw [Cert.LibGraphOps.bcast_col_apply, wrap_dst_a x1 H, dst2_toInt x1 H]

theorem gdims_eq : gather_S100000_S1700000x1_S1700000_n_0_n_n_0_1_1
    = Cert.LibGraphOps.vecGatherDims 100000 1700000 Facts₀.gather_S100000_S1700000x1_S1700000_n_0_n_n_0_1_1_wf := rfl

/-- The inverse roots gathered at a column of positions whose entry at `j` is the node `m`. -/
theorem gather_dinv (idx : IVec (⟨2, ![1700000, 1]⟩ : Shape) 32) (j : Fin 1700000) (m : Fin 100000)
    (h : (idx (ix2 j (0 : Fin 1))).toInt = (m.val : ℤ)) :
    Host.gather gather_S100000_S1700000x1_S1700000_n_0_n_n_0_1_1 (val_main_v19 (F := Ideal) x1) idx (ix1 j)
      = val_main_v19 (F := Ideal) x1 (ix1 m) := by
  rw [gdims_eq, Cert.LibGraphOps.gather_vec_apply (N := 100000) (by omega)]
  refine congrArg (fun k : Fin 100000 => val_main_v19 (F := Ideal) x1 (ix1 k)) (Fin.ext ?_)
  show min (idx (ix2 j (0 : Fin 1))).toInt.toNat (100000 - 1) = m.val
  rw [h]
  have := m.isLt
  omega

theorem norm_read (H : InRange x1) (j : Fin 1700000) :
    val_main_v34 (F := Ideal) x1 (ix1 j)
      = dinvR (nodeAt x1 1) (s2 x1 j) * dinvR (nodeAt x1 1) (d2 x1 j) := by
  rw [val_main_v34_apply, Ideal.mulf_def]
  unfold val_main_v26 val_main_v33
  rw [gather_dinv x1 _ j (s2 x1 j) (srccol_a x1 H j), gather_dinv x1 _ j (d2 x1 j) (dstcol_a x1 H j),
    dinv_read x1 H, dinv_read x1 H]

/-! ## The second layer repeats the first layer's index terms -/

theorem second_copy (H : InRange x1) :
    val_main_v54 (F := Ideal) x1 = val_main_v6 (F := Ideal) x1
      ∧ val_main_v55 (F := Ideal) x1 = val_main_v7 (F := Ideal) x1
      ∧ val_main_v82 (F := Ideal) x1 = val_main_v34 (F := Ideal) x1
      ∧ val_main_v87 (F := Ideal) x1 = val_main_v6 (F := Ideal) x1 :=
  ⟨rfl, rfl, rfl, (show val_main_v87 (F := Ideal) x1 = val_main_v24 (F := Ideal) x1 from rfl).trans (wrap_src_a x1 H)⟩

end Cert.Gcn.Ref

end
-- ==== Proof.RefLayer.lean ====
/-
  One edge-scaled graph-convolution layer as a host program computes it, read at an entry.

  The list of 1600000 edges is extended by one loop per node (1700000 rows in all).  Row j carries a source s' j and a
  destination d' j; the message of row j is row s' j of the [100000, C] array Y (a row gather) times the scalar
  dv (s' j) * dv (d' j) (a column broadcast over the C features), and the messages are added into the rows of a
  [100000, C] array named by the destinations (a segment sum).  Entry (n, f) of the result is the starting array's
  entry plus the messages of the edges arriving at n plus the loop's message Y n f * (dv n * dv n): the sum over the
  1700000 rows is cut after the edges, and among the 100000 loops exactly the loop of n arrives at n.
-/
import Idealize.ShloMosaic.Lib.ValueIdx
import Idealize.ShloMosaic.PureOps.Ideal
import Idealize.ShloMosaic.Lib.Pipeline.Value
import proofs.«156284_j70136815943923_2_alg».proof.Proof.GcnSpec
import proofs.«156284_j70136815943923_2_alg».proof.Proof.LibSegPool
import proofs.«156284_j70136815943923_2_alg».proof.Proof.LibGatherRows
import proofs.«156284_j70136815943923_2_alg».proof.Proof.LibConcat2
import proofs.«156284_j70136815943923_2_alg».proof.Proof.LibGraphOps

noncomputable section

open scoped BigOperators

namespace Cert.Gcn.Ref

open Idealize.ShloMosaic Idealize.ShloMosaic.ValueIdx

section Sums

variable (s d : Fin 1600000 → Fin 100000) (s' d' : Fin 1700000 → Fin 100000)
  (hlo : ∀ (j : Fin 1700000) (h : j.val < 1600000), s' j = s ⟨j.val, h⟩ ∧ d' j = d ⟨j.val, h⟩)
  (hhi : ∀ j : Fin 1700000, ¬ j.val < 1600000 → (s' j).val = j.val - 1600000 ∧ (d' j).val = j.val - 1600000)

include hlo hhi in
/-- THE SUM OVER THE EXTENDED EDGE LIST: a term g (source, destination) added over the rows arriving at n is the
    sum over the edges arriving at n plus the term of n's own loop. -/
theorem sum_extended (g : Fin 100000 → Fin 100000 → EReal) (n : Fin 100000) :
    (∑ j : Fin 1700000, if d' j = n then g (s' j) (d' j) else 0)
      = (∑ e : Fin 1600000, if d e = n then g (s e) (d e) else 0) + g n n := by
  have keyLo : ∀ (j : Fin 1700000) (l : Fin 1600000), j.val = l.val →
      (if d' j = n then g (s' j) (d' j) else 0) = if d l = n then g (s l) (d l) else 0 := by
    intro j l h
    obtain ⟨h1, h2⟩ := hlo j (by have := l.isLt; omega)
    have hl : (⟨j.val, by have := l.isLt; omega⟩ : Fin 1600000) = l := Fin.ext h
    rw [h1, h2, hl]
  have keyHi : ∀ (j : Fin 1700000) (l : Fin 100000), j.val = 1600000 + l.val → s' j = l ∧ d' j = l := by
    intro j l h
    obtain ⟨h1, h2⟩ := hhi j (by omega)
    exact ⟨Fin.ext (by omega), Fin.ext (by omega)⟩
  rw [Cert.LibConcat2.sum_two_blocks (a := 1600000) (b := 100000) (n := 1700000) rfl]
  refine congrArg₂ (· + ·) ?_ ?_
  · exact Finset.sum_congr rfl fun l _ => keyLo _ l rfl
  · have hterm : ∀ l : Fin 100000,
        (if d' ⟨1600000 + l.val, by have := l.isLt; omega⟩ = n
          then g (s' ⟨1600000 + l.val, by have := l.isLt; omega⟩) (d' ⟨1600000 + l.val, by have := l.isLt; omega⟩) else 0)
          = if l = n then g l l else 0 := by
      intro l
      obtain ⟨h1, h2⟩ := keyHi ⟨1600000 + l.val, by have := l.isLt; omega⟩ l rfl
      rw [h1, h2]
    rw [Finset.sum_congr rfl fun l _ => hterm l, Finset.sum_ite_eq' Finset.univ n (fun l => g l l),
      if_pos (Finset.mem_univ n)]

end Sums

/-- An [N, 1] column laid out over C columns, read at (j, f): the column's entry (j, 0). -/
theorem bcast_cols_apply {α : Type} {C : ℕ}
    (h : (⟨2, ![1700000, 1]⟩ : Shape).BroadcastsInDim ⟨2, ![1700000, C]⟩ (![0, 1] : Fin 2 → Fin 2))
    (v : (⟨2, ![1700000, 1]⟩ : Shape).Idx → α) (j : Fin 1700000) (f : Fin C) :
    broadcastInDim (⟨2, ![1700000, C]⟩ : Shape) (![0, 1] : Fin 2 → Fin 2) h v (ix2 j f) = v (ix2 j (0 : Fin 1)) := by
  refine broadcastInDim_apply _ h v (ix2 j f) (ix2 j (0 : Fin 1)) (fun a => ?_)
  match a with
  | ⟨0, _⟩ =>
    show j.val = if (1700000 : ℕ) = 1 then 0 else j.val
    rw [if_neg (by decide)]
  | ⟨1, _⟩ =>
    show 0 = if (1 : ℕ) = 1 then 0 else f.val
    rw [if_pos rfl]

section Layer

variable {C : ℕ}
  (wfS : ScatterDims.WF ⟨2, ![100000, C]⟩ ⟨2, ![1700000, 1]⟩ ⟨2, ![1700000, C]⟩ [1] [0] [0] 1)
  (wfG : GatherDims.WF ⟨2, ![100000, C]⟩ ⟨2, ![1700000, 1]⟩ ⟨2, ![1700000, C]⟩ [1] [0] [] [0] [] 1 ![1, C])
  (s d : Fin 1600000 → Fin 100000) (s' d' : Fin 1700000 → Fin 100000) (dv : Fin 100000 → EReal)
  (hlo : ∀ (j : Fin 1700000) (h : j.val < 1600000), s' j = s ⟨j.val, h⟩ ∧ d' j = d ⟨j.val, h⟩)
  (hhi : ∀ j : Fin 1700000, ¬ j.val < 1600000 → (s' j).val = j.val - 1600000 ∧ (d' j).val = j.val - 1600000)

include hlo hhi in
/-- THE LAYER OVER COLUMNS GIVEN BY THEIR ENTRIES: the segment sum, by a destination column, of the row gather of Y by
    a source column times an array whose row j holds dv (s' j) * dv (d' j) in every column. -/
theorem layer_core (Z Y : (⟨2, ![100000, C]⟩ : Shape).Idx → EReal)
    (dstCol srcCol : IVec ⟨2, ![1700000, 1]⟩ 32) (nrmB : (⟨2, ![1700000, C]⟩ : Shape).Idx → EReal)
    (hdc : ∀ j : Fin 1700000, (dstCol (ix2 j (0 : Fin 1))).toInt = ((d' j).val : ℤ))
    (hsc : ∀ j : Fin 1700000, (srcCol (ix2 j (0 : Fin 1))).toInt = ((s' j).val : ℤ))
    (hnb : ∀ (j : Fin 1700000) (f : Fin C), nrmB (ix2 j f) = dv (s' j) * dv (d' j))
    (n : Fin 100000) (f : Fin C) :
    Host.scatterAdd (F := Ideal) (φ := .f32) (Cert.LibSegPool.poolDims 100000 1700000 C wfS) Z dstCol
        (mulf (F := Ideal) (φ := .f32) (Host.gather (Cert.LibGatherRows.rowsDims 100000 C 1700000 wfG) Y srcCol) nrmB)
        (ix2 n f)
      = Z (ix2 n f) + ((∑ e : Fin 1600000, if d e = n then mat Y (s e) f * (dv (s e) * dv (d e)) else 0)
          + mat Y n f * (dv n * dv n)) := by
  show Ideal.hostScatterAdd (Cert.LibSegPool.poolDims 100000 1700000 C wfS) Z dstCol _ (ix2 n f) = _
  rw [Cert.LibSegPool.scatterAdd_pool_apply]
  refine congrArg (Z (ix2 n f) + ·) ?_
  rw [← sum_extended s d s' d' hlo hhi (fun a b => mat Y a f * (dv a * dv b)) n]
  refine Finset.sum_congr rfl fun j _ => ?_
  have hrow : (⟨min (srcCol (ix2 j (0 : Fin 1))).toInt.toNat (100000 - 1), by omega⟩ : Fin 100000) = s' j := by
    refine Fin.ext ?_
    have := (s' j).isLt
    show min (srcCol (ix2 j (0 : Fin 1))).toInt.toNat (100000 - 1) = (s' j).val
    rw [hsc j]; omega
  have hmsg : mulf (F := Ideal) (φ := .f32) (Host.gather (Cert.LibGatherRows.rowsDims 100000 C 1700000 wfG) Y srcCol) nrmB (ix2 j f)
      = mat Y (s' j) f * (dv (s' j) * dv (d' j)) := by
    show Host.gather (Cert.LibGatherRows.rowsDims 100000 C 1700000 wfG) Y srcCol (ix2 j f) * nrmB (ix2 j f) = _
    rw [Cert.LibGatherRows.gather_rows_apply (by omega), hrow, hnb j f]
    rfl
  rw [hmsg, hdc j]
  by_cases h : d' j = n
  · rw [if_pos h, if_pos (by rw [h])]
  · rw [if_neg h, if_neg (fun hh => h (Fin.ext (by exact_mod_cast hh)))]

include hlo hhi in
/-- THE LAYER OVER THE HOST OPERATIONS: the columns are vectors laid out as [1700000, 1] arrays, the scale is the
    vector nrm laid out as a column and repeated over the C features. -/
theorem layer_read
    (hb1 : (⟨1, ![1700000]⟩ : Shape).BroadcastsInDim ⟨2, ![1700000, 1]⟩ (![0] : Fin 1 → Fin 2))
    (hb2 : (⟨2, ![1700000, 1]⟩ : Shape).BroadcastsInDim ⟨2, ![1700000, C]⟩ (![0, 1] : Fin 2 → Fin 2))
    (Z Y : (⟨2, ![100000, C]⟩ : Shape).Idx → EReal)
    (dstW srcW : IVec ⟨1, ![1700000]⟩ 32) (nrm : (⟨1, ![1700000]⟩ : Shape).Idx → EReal)
    (hd : ∀ j : Fin 1700000, (dstW (ix1 j)).toInt = ((d' j).val : ℤ))
    (hs : ∀ j : Fin 1700000, (srcW (ix1 j)).toInt = ((s' j).val : ℤ))
    (hn : ∀ j : Fin 1700000, nrm (ix1 j) = dv (s' j) * dv (d' j))
    (n : Fin 100000) (f : Fin C) :
    Host.scatterAdd (F := Ideal) (φ := .f32) (Cert.LibSegPool.poolDims 100000 1700000 C wfS) Z
        (broadcastInDim (⟨2, ![1700000, 1]⟩ : Shape) (![0] : Fin 1 → Fin 2) hb1 dstW)
        (mulf (F := Ideal) (φ := .f32)
          (Host.gather (Cert.LibGatherRows.rowsDims 100000 C 1700000 wfG) Y
            (broadcastInDim (⟨2, ![1700000, 1]⟩ : Shape) (![0] : Fin 1 → Fin 2) hb1 srcW))
          (broadcastInDim (⟨2, ![1700000, C]⟩ : Shape) (![0, 1] : Fin 2 → Fin 2) hb2
            (broadcastInDim (⟨2, ![1700000, 1]⟩ : Shape) (![0] : Fin 1 → Fin 2) hb1 nrm)))
        (ix2 n f)
      = Z (ix2 n f) + ((∑ e : Fin 1600000, if d e = n then mat Y (s e) f * (dv (s e) * dv (d e)) else 0)
          + mat Y n f * (dv n * dv n)) := by
  refine layer_core wfS wfG s d s' d' dv hlo hhi Z Y _ _ _ ?_ ?_ ?_ n f
  · intro j; rw [Cert.LibGraphOps.bcast_col_apply]; exact hd j
  · intro j; rw [Cert.LibGraphOps.bcast_col_apply]; exact hs j
  · intro j f'; rw [bcast_cols_apply, Cert.LibGraphOps.bcast_col_apply]; exact hn j

end Layer

end Cert.Gcn.Ref

end
-- ==== Proof.RefOut.lean ====
/-
  The edge-scaled two-layer graph convolution as the host program computes it, read at an entry: each layer's segment
  sum is one application of the layer read at an entry (a sum over the edges arriving at the node plus the node's own
  loop), the dense products are matrix products entry by entry, and the whole is the edge-scaled network of the six
  argument arrays.
-/
import proofs.«156284_j70136815943923_2_alg».proof.Proof.Gen.ReferenceIdeal.Read
import proofs.«156284_j70136815943923_2_alg».proof.Proof.GcnSpec
import proofs.«156284_j70136815943923_2_alg».proof.Proof.RefIndex
import proofs.«156284_j70136815943923_2_alg».proof.Proof.RefLayer

noncomputable section

open scoped BigOperators

namespace Cert.Gcn.Ref

open Cert.ReferenceIdeal Cert.ReferenceIdeal.Read Cert.Gcn Idealize.ShloMosaic Idealize.ShloMosaic.ValueIdx

/-- Among the edges the extended lists are the endpoints. -/
theorem ext_lo (x1 : EdgeArr) (j : Fin 1700000) (h : j.val < 1600000) :
    s2 x1 j = nodeAt x1 0 ⟨j.val, h⟩ ∧ d2 x1 j = nodeAt x1 1 ⟨j.val, h⟩ := by
  unfold s2 d2
  rw [dif_pos h, dif_pos h]
  exact ⟨rfl, rfl⟩

/-- Among the loops both extended lists are the node itself. -/
theorem ext_hi (x1 : EdgeArr) (j : Fin 1700000) (h : ¬ j.val < 1600000) :
    (s2 x1 j).val = j.val - 1600000 ∧ (d2 x1 j).val = j.val - 1600000 := by
  unfold s2 d2
  rw [dif_neg h, dif_neg h]
  exact ⟨rfl, rfl⟩

section
variable (x0 : (⟨S100000x512, .f32⟩ : BufTy).Contents (Elt Ideal)) (x1 : (⟨S2x1600000, .i32⟩ : BufTy).Contents (Elt Ideal))
  (x2 : (⟨S512x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first dense product, entry by entry. -/
theorem y1_read : mat (val_main_v4 (F := Ideal) x0 x2) = prod (mat x0) (mat x2) := by
  funext a f
  show val_main_v4 (F := Ideal) x0 x2 (ix2 a f) = ∑ k : Fin 512, x0 (ix2 a k) * x2 (ix2 k f)
  rw [val_main_v4_apply]
  refine Finset.sum_congr rfl fun k _ => ?_
  have el : lidx_main_v4 (ix2 a f) k = ix2 a k := funext fun b => by
    match b with
    | ⟨0, _⟩ => rfl
    | ⟨1, _⟩ => rfl
  have er : ridx_main_v4 (ix2 a f) k = ix2 k f := funext fun b => by
    match b with
    | ⟨0, _⟩ => rfl
    | ⟨1, _⟩ => rfl
  rw [el, er]

/-- The first segment sum at (n, f). -/
theorem agg1_read (H : InRange x1) (n : Fin 100000) (f : Fin 128) :
    val_main_v47 (F := Ideal) x0 x1 x2 (ix2 n f)
      = zeroW + ((∑ e : Fin 1600000, if nodeAt x1 1 e = n then
            prod (mat x0) (mat x2) (nodeAt x1 0 e) f
              * (dinvR (nodeAt x1 1) (nodeAt x1 0 e) * dinvR (nodeAt x1 1) (nodeAt x1 1 e)) else 0)
          + prod (mat x0) (mat x2) n f * (dinvR (nodeAt x1 1) n * dinvR (nodeAt x1 1) n)) := by
  rw [← y1_read]
  unfold val_main_v47 val_main_v46 val_main_v44 val_main_v41 val_main_v40 val_main_v43 val_main_v42
  rw [wrap_src_b x1 H]
  generalize val_main_v4 (F := Ideal) x0 x2 = Y
  refine (layer_read (C := 128) Facts₀.scatter_S100000x128_S1700000x1_S1700000x128_1_0_0_1_wf
    Facts₀.gather_S100000x128_S1700000x1_S1700000x128_1_0_n_n_0_1_1128_wf
    (nodeAt x1 0) (nodeAt x1 1) (s2 x1) (d2 x1) (dinvR (nodeAt x1 1)) (ext_lo x1) (ext_hi x1)
    Facts₀.bcast_S1700000_S1700000x1_0 Facts₀.bcast_S1700000x1_S1700000x128_0_1
    (val_main_v45 (F := Ideal)) Y (val_main_v7 (F := Ideal) x1) (val_main_v6 (F := Ideal) x1) (val_main_v34 (F := Ideal) x1)
    (dst2_toInt x1 H) (src2_toInt x1 H) (norm_read x1 H) n f).trans ?_
  rw [val_main_v45_apply, val_main_cst_9_apply]
  rfl

/-- The hidden layer at (n, f). -/
theorem hid_read (H : InRange x1) (n : Fin 100000) (f : Fin 128) :
    val_main_v51 (F := Ideal) x0 x1 x2 x3 (ix2 n f)
      = hidR (nodeAt x1 0) (nodeAt x1 1) (dinvR (nodeAt x1 1)) (prod (mat x0) (mat x2)) (vec x3) n f := by
  rw [val_main_v51_apply, val_main_v50_apply, agg1_read x0 x1 x2 H, val_main_v49_apply, val_main_v48_apply,
    val_main_call0_v0_apply, val_main_call0_cst_apply]
  have eb : idx_main_v48 (idx_main_v49 (ix2 n f)) = ix1 f := funext fun b => by
    match b with
    | ⟨0, _⟩ => rfl
  rw [eb]
  rfl

/-- The second dense product, entry by entry. -/
theorem y2_read (H : InRange x1) :
    mat (val_main_v52 (F := Ideal) x0 x1 x2 x3 x4)
      = prod (hidR (nodeAt x1 0) (nodeAt x1 1) (dinvR (nodeAt x1 1)) (prod (mat x0) (mat x2)) (vec x3)) (mat x4) := by
  funext a g
  show val_main_v52 (F := Ideal) x0 x1 x2 x3 x4 (ix2 a g) = ∑ k : Fin 128, _ * x4 (ix2 k g)
  rw [val_main_v52_apply]
  refine Finset.sum_congr rfl fun k _ => ?_
  have el : lidx_main_v52 (ix2 a g) k = ix2 a k := funext fun b => by
    match b with
    | ⟨0, _⟩ => rfl
    | ⟨1, _⟩ => rfl
  have er : ridx_main_v52 (ix2 a g) k = ix2 k g := funext fun b => by
    match b with
    | ⟨0, _⟩ => rfl
    | ⟨1, _⟩ => rfl
  rw [el, er, hid_read x0 x1 x2 x3 H]

/-- The second segment sum at (n, g). -/
theorem agg2_read (H : InRange x1) (n : Fin 100000) (g : Fin 64) :
    val_main_v95 (F := Ideal) x0 x1 x2 x3 x4 (ix2 n g)
      = zeroW + ((∑ e : Fin 1600000, if nodeAt x1 1 e = n then
            mat (val_main_v52 (F := Ideal) x0 x1 x2 x3 x4) (nodeAt x1 0 e) g
              * (dinvR (nodeAt x1 1) (nodeAt x1 0 e) * dinvR (nodeAt x1 1) (nodeAt x1 1 e)) else 0)
          + mat (val_main_v52 (F := Ideal) x0 x1 x2 x3 x4) n g * (dinvR (nodeAt x1 1) n * dinvR (nodeAt x1 1) n)) := by
  unfold val_main_v95 val_main_v94 val_main_v92 val_main_v89 val_main_v88 val_main_v91 val_main_v90
  rw [(second_copy x1 H).2.1, (second_copy x1 H).2.2.1, (second_copy x1 H).2.2.2]
  generalize val_main_v52 (F := Ideal) x0 x1 x2 x3 x4 = Y
  refine (layer_read (C := 64) Facts₀.scatter_S100000x64_S1700000x1_S1700000x64_1_0_0_1_wf
    Facts₀.gather_S100000x64_S1700000x1_S1700000x64_1_0_n_n_0_1_164_wf
    (nodeAt x1 0) (nodeAt x1 1) (s2 x1) (d2 x1) (dinvR (nodeAt x1 1)) (ext_lo x1) (ext_hi x1)
    Facts₀.bcast_S1700000_S1700000x1_0 Facts₀.bcast_S1700000x1_S1700000x64_0_1
    (val_main_v93 (F := Ideal)) Y (val_main_v7 (F := Ideal) x1) (val_main_v6 (F := Ideal) x1) (val_main_v34 (F := Ideal) x1)
    (dst2_toInt x1 H) (src2_toInt x1 H) (norm_read x1 H) n g).trans ?_
  rw [val_main_v93_apply, val_main_cst_21_apply]
  rfl

/-- THE REFERENCE'S RESULT AT (n, g) is the edge-scaled network of the six argument arrays. -/
theorem ref_out (H : InRange x1) (n : Fin 100000) (g : Fin 64) :
    val_main_v98 (F := Ideal) x0 x1 x2 x3 x4 x5 (ix2 n g) = referenceOut x0 x1 x2 x3 x4 x5 n g := by
  rw [val_main_v98_apply, agg2_read x0 x1 x2 x3 x4 H, y2_read x0 x1 x2 x3 x4 H, val_main_v97_apply, val_main_v96_apply]
  have eb : idx_main_v96 (idx_main_v97 (ix2 n g)) = ix1 g := funext fun b => by
    match b with
    | ⟨0, _⟩ => rfl
  rw [eb]
  rfl

end

end Cert.Gcn.Ref

end
-- ==== Proof.Claims.lean ====
/-
  The five claims about the two-layer graph convolution.

  Both idealized programs end with the [100000, 64] array of the node-scaled network of the argument arrays: the
  kernel program because its result buffer is its own function of the arguments, which index by index is that
  network; the reference because its run's term is, index by index, the edge-scaled network, and the two networks are
  one function on the extended reals — a node's scale is a non-negative real, so it distributes over the sum of the
  messages arriving at the node, whatever their values. The edge array's entries are node numbers by the
  precondition; nothing else of the precondition is used.
-/
import proofs.«156284_j70136815943923_2_alg».proof.Defs
import proofs.«156284_j70136815943923_2_alg».proof.Proof.Gen.Pre_finite_inputs
import proofs.«156284_j70136815943923_2_alg».proof.Proof.Gen.Kernel.Frame
import proofs.«156284_j70136815943923_2_alg».proof.Proof.Gen.KernelIdeal.Frame
import proofs.«156284_j70136815943923_2_alg».proof.Proof.Gen.ReferenceIdeal.Read
import proofs.«156284_j70136815943923_2_alg».proof.Proof.GcnLaw
import proofs.«156284_j70136815943923_2_alg».proof.Proof.GcnPre
import proofs.«156284_j70136815943923_2_alg».proof.Proof.KerFrame
import proofs.«156284_j70136815943923_2_alg».proof.Proof.KerPoint
import proofs.«156284_j70136815943923_2_alg».proof.Proof.RefOut

set_option maxRecDepth 16384

noncomputable section

namespace Cert.Proof.GcnClaims

open Idealize.ShloMosaic Idealize.ShloMosaic.TcCoe Idealize.SL.Sem Idealize.ShloMosaic.ValueIdx

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- The kernel program's result buffer ends at the node-scaled network of the argument arrays. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W5 (F := Ideal) m ρ c (Proc.devRef .tc Cert.KernelIdeal.main_v43)
      = Cert.Gcn.kernelArr
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  refine (Cert.Gcn.KerH.result_value m ρ c).trans ?_
  funext i
  obtain ⟨n, g, rfl⟩ : ∃ (n : Fin 100000) (g : Fin 64), i = ix2 n g := ⟨i 0, i 1, eq_ix2 i⟩
  exact Cert.Gcn.KerH.kerFun_apply _ (Cert.Gcn.inRange_of_pre m hpre c) _ _ _ _ _ n g

/-- The reference's result term, over arrays whose edge entries are node numbers, is the same array. -/
theorem reference_result (x0 : (⟨2, ![100000, 512]⟩ : Shape).Idx → EReal) (x1 : Cert.Gcn.EdgeArr)
    (x2 : (⟨2, ![512, 128]⟩ : Shape).Idx → EReal) (x3 : (⟨1, ![128]⟩ : Shape).Idx → EReal)
    (x4 : (⟨2, ![128, 64]⟩ : Shape).Idx → EReal) (x5 : (⟨1, ![64]⟩ : Shape).Idx → EReal) (H : Cert.Gcn.InRange x1) :
    Cert.ReferenceIdeal.Read.val_main_v98 (F := Ideal) x0 x1 x2 x3 x4 x5 = Cert.Gcn.kernelArr x0 x1 x2 x3 x4 x5 := by
  funext i
  obtain ⟨n, g, rfl⟩ : ∃ (n : Fin 100000) (g : Fin 64), i = ix2 n g := ⟨i 0, i 1, eq_ix2 i⟩
  refine (Cert.Gcn.Ref.ref_out x0 x1 x2 x3 x4 x5 H n g).trans ?_
  exact (Cert.Gcn.kernelOut_eq_referenceOut x0 x1 x2 x3 x4 x5 n g).symm

theorem algebraic : Cert.algebraic_KernelIdeal_ReferenceIdeal := by
  intro m ρ m' ρ' hpre hagree
  refine ⟨fun c => Cert.Gcn.kernelArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (kernel_result m ρ hpre c), (h c).2⟩)
      (Cert.Gcn.Ker.frame_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v98_eq, (hagree c).1, (hagree c).2.1, (hagree c).2.2.1, (hagree c).2.2.2.1,
      (hagree c).2.2.2.2.1, (hagree c).2.2.2.2.2]
    exact reference_result _ _ _ _ _ _ (Cert.Gcn.inRange_of_pre m hpre c)

end Cert.Proof.GcnClaims

end
-- ==== Proof.lean ====
/-
  The certificate of a two-layer graph convolution over 100000 nodes and 1600000 edges: a kernel program that scales
  every node's feature row by deg^(-1/2) before and after the rows travel along the edges (two matrix kernels with the
  scaling fused in, the gather and segment sum between them on the host), against a reference that appends a loop per
  node to the edge list and scales every message by deg(src)^(-1/2) · deg(dst)^(-1/2).

  The frames of the two kernel programs are their generated frame certificates and the reference's is its generated run.
  The ideal pass rewrote nothing. At the ideal instance both programs end at the same [100000, 64] array
  (Proof/Claims.lean): the kernel's result buffer is read back through its two kernels and three stretches of host
  lines, the reference's result term one operation at a time, and the two networks agree on the extended reals because
  a node's scale is a non-negative real number (Proof/GcnLaw.lean). The statement's precondition says, beside the
  finiteness of the float inputs (which the proof does not use), that every entry of the edge array is a node number.
-/
import proofs.«156284_j70136815943923_2_alg».proof.Defs
import proofs.«156284_j70136815943923_2_alg».proof.Proof.Gen.Kernel
import proofs.«156284_j70136815943923_2_alg».proof.Proof.Gen.Kernel.Skeleton
import proofs.«156284_j70136815943923_2_alg».proof.Proof.Gen.Kernel.Launch
import proofs.«156284_j70136815943923_2_alg».proof.Proof.Gen.Kernel.Points
import proofs.«156284_j70136815943923_2_alg».proof.Proof.Gen.Kernel.Frame
import proofs.«156284_j70136815943923_2_alg».proof.Proof.Gen.KernelIdeal
import proofs.«156284_j70136815943923_2_alg».proof.Proof.Gen.KernelIdeal.Skeleton
import proofs.«156284_j70136815943923_2_alg».proof.Proof.Gen.KernelIdeal.Launch
import proofs.«156284_j70136815943923_2_alg».proof.Proof.Gen.KernelIdeal.Points
import proofs.«156284_j70136815943923_2_alg».proof.Proof.Gen.KernelIdeal.Frame
import proofs.«156284_j70136815943923_2_alg».proof.Proof.Gen.ReferenceIdeal
import proofs.«156284_j70136815943923_2_alg».proof.Proof.Gen.Pre_finite_inputs
import proofs.«156284_j70136815943923_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    GcnClaims.frame_p, GcnClaims.frame_pi, GcnClaims.frame_ri, GcnClaims.preserves, GcnClaims.algebraic⟩

end Cert.Proof

end
